-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S1x64 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S1x64 .f32) (main_arg7 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x64 : Shape := ⟨2, ![2000, 64]⟩
abbrev S800000x64 : Shape := ⟨2, ![800000, 64]⟩
abbrev S8000x64 : Shape := ⟨2, ![8000, 64]⟩
abbrev S8000x1 : Shape := ⟨2, ![8000, 1]⟩
abbrev S2000x1 : Shape := ⟨2, ![2000, 1]⟩
abbrev S64x1 : Shape := ⟨2, ![64, 1]⟩
abbrev S1x1 : Shape := ⟨2, ![1, 1]⟩

abbrev nBuf : Space → Nat
  | .hbm => 98
  | .vmem => 60
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000, .f32⟩
  | .hbm, ⟨43, _⟩ => ⟨S50000x1, .f32⟩
  | .hbm, ⟨44, _⟩ => ⟨S64x64, .f32⟩
  | .hbm, ⟨45, _⟩ => ⟨S1x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S50000x64, .f32⟩
  | .hbm, ⟨62, _⟩ => ⟨S64x64, .f32⟩
  | .hbm, ⟨63, _⟩ => ⟨S1x64, .f32⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S50000x64, .f32⟩
  | .hbm, ⟨80, _⟩ => ⟨S64x1, .f32⟩
  | .hbm, ⟨81, _⟩ => ⟨S1x1, .f32⟩
  | .hbm, ⟨82, _⟩ => ⟨S50000x1, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x1, .f32⟩
  | .hbm, ⟨92, _⟩ => ⟨S800000x1, .f32⟩
  | .hbm, ⟨93, _⟩ => ⟨S_, .f32⟩
  | .hbm, ⟨94, _⟩ => ⟨S50000x1, .f32⟩
  | .hbm, ⟨95, _⟩ => ⟨S800000x1, .i32⟩
  | .hbm, ⟨96, _⟩ => ⟨S50000x1, .f32⟩
  | .hbm, ⟨97, _⟩ => ⟨S50000x1, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S8000x64, .f32⟩
  | .local _ .vmem, ⟨7, _⟩ => ⟨S8000x64, .f32⟩
  | .local _ .vmem, ⟨8, _⟩ => ⟨S8000x1, .f32⟩
  | .local _ .vmem, ⟨9, _⟩ => ⟨S8000x1, .f32⟩
  | .local _ .vmem, ⟨10, _⟩ => ⟨S8000x64, .f32⟩
  | .local _ .vmem, ⟨11, _⟩ => ⟨S8000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S8000x64, .f32⟩
  | .local _ .vmem, ⟨27, _⟩ => ⟨S8000x64, .f32⟩
  | .local _ .vmem, ⟨28, _⟩ => ⟨S8000x1, .f32⟩
  | .local _ .vmem, ⟨29, _⟩ => ⟨S8000x1, .f32⟩
  | .local _ .vmem, ⟨30, _⟩ => ⟨S8000x64, .f32⟩
  | .local _ .vmem, ⟨31, _⟩ => ⟨S8000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x1, .f32⟩
  | .local _ .vmem, ⟨37, _⟩ => ⟨S2000x1, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S64x1, .f32⟩
  | .local _ .vmem, ⟨43, _⟩ => ⟨S1x1, .f32⟩
  | .local _ .vmem, ⟨44, _⟩ => ⟨S2000x1, .f32⟩
  | .local _ .vmem, ⟨45, _⟩ => ⟨S2000x1, .f32⟩
  | .local _ .vmem, ⟨46, _⟩ => ⟨S8000x1, .f32⟩
  | .local _ .vmem, ⟨47, _⟩ => ⟨S8000x1, .f32⟩
  | .local _ .vmem, ⟨48, _⟩ => ⟨S8000x1, .f32⟩
  | .local _ .vmem, ⟨49, _⟩ => ⟨S8000x1, .f32⟩
  | .local _ .vmem, ⟨50, _⟩ => ⟨S8000x1, .f32⟩
  | .local _ .vmem, ⟨51, _⟩ => ⟨S8000x1, .f32⟩
  | .local _ .vmem, ⟨52, _⟩ => ⟨S2000x1, .f32⟩
  | .local _ .vmem, ⟨53, _⟩ => ⟨S2000x1, .f32⟩
  | .local _ .vmem, ⟨54, _⟩ => ⟨S2000x1, .f32⟩
  | .local _ .vmem, ⟨55, _⟩ => ⟨S2000x1, .f32⟩
  | .local _ .vmem, ⟨56, _⟩ => ⟨S2000x1, .f32⟩
  | .local _ .vmem, ⟨57, _⟩ => ⟨S2000x1, .f32⟩
  | .local _ .vmem, ⟨58, _⟩ => ⟨S2000x1, .f32⟩
  | .local _ .vmem, ⟨59, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc8_sem3_0 : DmaSem sig := 58
abbrev cc8_sem3_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  shapeCasts_S50000_S50000x1 : S50000.ShapeCasts S50000x1
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S50000x64 : S_.BroadcastsInDim S50000x64 (![] : Fin 0 → Fin S50000x64.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x1_S2000x1_1_0_0_1_n_n_wf : DotDims.WF S2000x64 S64x1 S2000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S800000x1.size a
  hwx4_1 : ∀ i : grid4.Coords, EltTy.bits .f32 = 32 ∨ (Rect.block (s := S800000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S800000x64.size a
  hwx4_2 : ∀ i : grid4.Coords, EltTy.bits .f32 = 32 ∨ (Rect.block (s := S800000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S50000x1.size a
  hwx6_3 : ∀ i : grid6.Coords, EltTy.bits .f32 = 32 ∨ (Rect.block (s := S50000x1) S2000x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x1.size a ≤ S800000x1.size a
  hwx7_0 : ∀ i : grid7.Coords, EltTy.bits .f32 = 32 ∨ (Rect.block (s := S800000x1) S8000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x1.size a ≤ S800000x1.size a
  hwx7_1 : ∀ i : grid7.Coords, EltTy.bits .f32 = 32 ∨ (Rect.block (s := S800000x1) S8000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x1.size a ≤ S800000x1.size a
  hwx7_2 : ∀ i : grid7.Coords, EltTy.bits .f32 = 32 ∨ (Rect.block (s := S800000x1) S8000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x1.size a ≤ S50000x1.size a
  hwx8_0 : ∀ i : grid8.Coords, EltTy.bits .f32 = 32 ∨ (Rect.block (s := S50000x1) S2000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .f32 = 32 ∨ (Rect.block (s := S50000x1) S2000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S50000x1.size a
  hwx8_2 : ∀ i : grid8.Coords, EltTy.bits .f32 = 32 ∨ (Rect.block (s := S50000x1) S2000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x1.size a ≤ S50000x1.size a
  hwx8_3 : ∀ i : grid8.Coords, EltTy.bits .f32 = 32 ∨ (Rect.block (s := S50000x1) S2000x1.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v53) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v58) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S2000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v68) S8000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v26) S8000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S8000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v72) S2000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v61) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v28) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v73) S2000x1.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S64x1 : Shape := ⟨2, ![64, 1]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S1x64, .f32⟩
  | 7 => ⟨S1, .f32⟩
  | 8 => ⟨S1x800000, .i32⟩
  | 9 => ⟨S800000, .i32⟩
  | 10 => ⟨S1x800000, .i32⟩
  | 11 => ⟨S800000, .i32⟩
  | 12 => ⟨S64x64, .f32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x1, .f32⟩
  | 56 => ⟨S800000x64, .f32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000, .f32⟩
  | 63 => ⟨S50000x1, .f32⟩
  | 64 => ⟨S50000x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S64x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x1, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000, .f32⟩
  | 121 => ⟨S50000x1, .f32⟩
  | 122 => ⟨S50000x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S64x1, .f32⟩
  | 1 => ⟨S50000x1, .f32⟩
  | 2 => ⟨S1x1, .f32⟩
  | 3 => ⟨S50000x1, .f32⟩
  | 4 => ⟨S50000x1, .f32⟩
  | 5 => ⟨S_, .f32⟩
  | 6 => ⟨S800000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x1, .f32⟩
  | 43 => ⟨S800000x1, .f32⟩
  | 44 => ⟨S800000x1, .f32⟩
  | 45 => ⟨S_, .f32⟩
  | 46 => ⟨S50000x1, .f32⟩
  | 47 => ⟨S800000x1, .i32⟩
  | 48 => ⟨S50000x1, .f32⟩
  | 49 => ⟨S50000, .f32⟩
  | 50 => ⟨S50000x1, .f32⟩
  | 51 => ⟨S50000x1, .f32⟩
  | 52 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_cst : Ref sig .tc := ⟨.hbm, 125, rfl⟩
abbrev main_call1_v0 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_18 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_23 : Ref sig .tc := ⟨.hbm, 152, rfl⟩
abbrev main_v115 : Ref sig .tc := ⟨.hbm, 153, rfl⟩
abbrev main_v116 : Ref sig .tc := ⟨.hbm, 154, rfl⟩
abbrev main_c_24 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_25 : Ref sig .tc := ⟨.hbm, 162, rfl⟩
abbrev main_v123 : Ref sig .tc := ⟨.hbm, 163, rfl⟩
abbrev main_v124 : Ref sig .tc := ⟨.hbm, 164, rfl⟩
abbrev main_c_26 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_27 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S1x64_S64x1_1_0 : S1x64.Transposes [1, 0] S64x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KernelRun.lean ====
/-
  The idealized kernel's run, with its result array named.

  The program is nine tiled regions among stretches of host operations. Its run ends with every buffer of the
  TensorCore at the contents the last boundary of that chain of segments gives it; the argument arrays are read
  back there as launched, and the result array — the last region's output — is read there as well, by name:
  it holds whatever the fold of host stretches and region write-backs leaves in it. What that is, entry by entry,
  is the business of the modules that read the fold.
-/
import proofs.«117141_j22101901705658_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched. -/
theorem run_named : θ_run defs (onTc (τ := τ) (main (F := F))) ⟨m, fun _ => 0, ρ⟩ (fun r => ∀ c : Dev nD,
      r.2.mem ((c.tc : Thread nD τ).loc main_v73) = W18 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v73 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.Whole

end
-- ==== Proof.Layers.lean ====
/-
  The dense pieces of one graph-convolution layer, as whole-array functions on the extended reals.

  A layer maps node features `x` (one row per node) to
      out(r, j) = Σ_{e : dst e = r} h(src e, j) · coef(e)  +  h(r, j) · selfc(r),      h = x·Wᵀ + b,
  optionally followed by `max(·, 0)`. The gather `h(src e, ·)` and the scatter-add over `dst` are shared host
  operations; what a tiled kernel and a plain array program spell differently are the three dense pieces below:
  the affine map `x·wt + b`, the per-edge scaling of a gathered row by one coefficient, and the final
  combination of the aggregate with the self-loop term. Each is stated entry by entry over literal extents
  (50000 nodes, 800000 edges, 64 features; the last layer has ONE output feature).
-/
import proofs.«117141_j22101901705658_2_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- The row coordinate of an index of a two-axis array, as a number below the row count. -/
abbrev row {n0 n1 : Nat} (i : (⟨2, ![n0, n1]⟩ : Shape).Idx) : Fin n0 := ⟨(i 0).val, (i 0).isLt⟩
/-- The column coordinate of an index of a two-axis array, as a number below the column count. -/
abbrev col {n0 n1 : Nat} (i : (⟨2, ![n0, n1]⟩ : Shape).Idx) : Fin n1 := ⟨(i 1).val, (i 1).isLt⟩

/-- The affine map into 64 features: entry (r, j) is Σ_k x(r, k) · wt(k, j) + b(0, j). -/
def dense64 (x : S50000x64.Idx → EReal) (wt : S64x64.Idx → EReal) (b : S1x64.Idx → EReal) : S50000x64.Idx → EReal :=
  fun i => (∑ k : Fin 64, x (ix2 (row i) k) * wt (ix2 k (col i))) + b (ix2 (0 : Fin 1) (col i))

/-- The affine map into ONE feature: entry (r, 0) is Σ_k x(r, k) · wt(k, 0) + b(0, 0). -/
def dense1 (x : S50000x64.Idx → EReal) (wt : S64x1.Idx → EReal) (b : S1x1.Idx → EReal) : S50000x1.Idx → EReal :=
  fun i => (∑ k : Fin 64, x (ix2 (row i) k) * wt (ix2 k (col i))) + b (ix2 (0 : Fin 1) (col i))

/-- A gathered row scaled by its edge's coefficient: entry (e, j) is g(e, j) · c(e, 0). -/
def scale64 (g : S800000x64.Idx → EReal) (c : S800000x1.Idx → EReal) : S800000x64.Idx → EReal :=
  fun i => g i * c (ix2 (row i) (0 : Fin 1))

/-- The same with one feature: entry (e, 0) is g(e, 0) · c(e, 0). -/
def scale1 (g : S800000x1.Idx → EReal) (c : S800000x1.Idx → EReal) : S800000x1.Idx → EReal :=
  fun i => g i * c i

/-- The aggregate plus the self-loop term, clamped below at zero: entry (r, j) is max(agg(r, j) + h(r, j) · s(r, 0), 0). -/
def combineRelu64 (agg h : S50000x64.Idx → EReal) (s : S50000x1.Idx → EReal) : S50000x64.Idx → EReal :=
  fun i => max (agg i + h i * s (ix2 (row i) (0 : Fin 1))) 0

/-- The aggregate plus the self-loop term, one feature, no clamp: entry (r, 0) is agg(r, 0) + h(r, 0) · s(r, 0). -/
def combine1 (agg h s : S50000x1.Idx → EReal) : S50000x1.Idx → EReal :=
  fun i => agg i + h i * s i

end Cert.Gcn

end
-- ==== Proof.TileBasics.lean ====
/-
  Small facts shared by the tiled regions: the zero offsets of a whole-block access, a column broadcast along
  the rows read at an index, and a vector laid out as a column read at an index.
-/
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Tiles

open Idealize.ShloMosaic Idealize.ShloMosaic.ValueIdx

/-- The two zero offsets of an access to a whole two-axis block, as the constant function. -/
theorem zero_offsets : (![0, 0] : Fin 2 → Nat) = fun _ => 0 := funext fun a => by fin_cases a <;> rfl

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` reshaped to the column `[a, 1]` reads, at `(p, 0)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    rw [Shape.rowMajor_val_one, Shape.rowMajor_val_two]
    show p.val = p.val * 1 + u.val
    have := u.isLt; omega)

/-- An index of a two-axis array whose second extent is one is determined by its row. -/
theorem eq_ix2_of_row {a : ℕ} (y : (⟨2, ![a, 1]⟩ : Shape).Idx) (p : Fin a) (h : (y 0).val = p.val) :
    y = ix2 p (0 : Fin 1) := by
  funext d
  match d with
  | ⟨0, _⟩ => exact Fin.ext h
  | ⟨1, _⟩ => exact Fin.ext (by have h1 : (y 1).val < 1 := (y 1).isLt; show (y 1).val = 0; omega)

end Cert.KernelIdeal.Tiles

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.DenseTiles0.lean ====
/-
  A dense region (the program's region 0): the affine map `x · wt + b` into 64 features, 2000 nodes per grid point.

  Each of the 25 grid points reads block `t` of the features, the whole weight matrix and the whole bias row, and
  writes block `t` of the result. Row `r` of the result depends on row `r` of the features only, so the blocks of
  the result are the blocks of ONE whole-array function, `Σ_k x(r, k) · wt(k, j) + b(0, j)`; they tile the node axis.
-/
import proofs.«117141_j22101901705658_2_alg».proof.Proof.Gen.KernelIdeal.Frame
import proofs.«117141_j22101901705658_2_alg».proof.Proof.Layers
import proofs.«117141_j22101901705658_2_alg».proof.Proof.TileBasics
import proofs.«117141_j22101901705658_2_alg».proof.Proof.LibMatmulNN

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 2000 nodes: the row of the block against the column of the
    weights, plus the bias at that column. The casts to the narrower float format are the identity on the extended
    reals, and the product into a zero accumulator is the plain sum over the 64 contracted positions. -/
theorem dense_body0 (x0 : Vec Ideal S2000x64 .f32) (x1 : Vec Ideal S64x64 .f32) (x2 : Vec Ideal S1x64 .f32) (y : S2000x64.Idx) :
    k0_pay1 (F := Ideal) x0 x1 x2 y
      = (∑ k : Fin 64, x0 (ix2 (Cert.Gcn.row y) k) * x1 (ix2 k (Cert.Gcn.col y))) + x2 (ix2 (0 : Fin 1) (Cert.Gcn.col y)) := by
  obtain ⟨p, q, rfl⟩ : ∃ (p : Fin 2000) (q : Fin 64), y = ix2 p q := ⟨y 0, y 1, eq_ix2 y⟩
  unfold k0_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant (F := Ideal) S2000x64 .f32 0x00000000#32) (ix2 p q)
      + broadcastTo S2000x64 x2 broadcasts_S1x64_S2000x64 (ix2 p q) = _
  rw [Cert.LibMatmulNN.matmul_nn_apply dot_S2000x64_S64x64_S2000x64_1_0_0_1_n_n rfl rfl rfl rfl rfl rfl none (truncf (F := Ideal) .bf16 x0 bitsLt_bf16_f32) (truncf (F := Ideal) .bf16 x1 bitsLt_bf16_f32) p q,
    broadcastTo_1b_ab_apply]
  rfl

/-- How the four windows' blocks move over the 25 grid points: the features and the result along the node axis with
    the point; the weights and the bias are one block, the same at every point. -/
theorem blocks0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) < 25 :=
  (by decide +kernel : ∀ t : Fin grid0.N, _)

/-- Every block of 2000 nodes is some grid point's. -/
theorem blocks_onto0 : ∀ q0 : Fin 25, ∃ t : Fin cfg0.N, win0_3.index t = ![q0.val, 0] :=
  (by decide +kernel : ∀ q0 : Fin 25, ∃ t : Fin grid0.N, win0_3.index t = ![q0.val, 0])

/-- What grid point `t` writes back is block `t` of the affine map of the whole arrays. -/
theorem dense_flushed0 (c : Dev nD) (t : Fin cfg0.N) :
    (dat0 (F := Ideal) V c).flushed 3 t
      = ((cfg0.win 3).blk t).view.read (Elt Ideal) (Cert.Gcn.dense64 (V c main_arg0) (V c main_v29) (V c main_v30)) := by
  show (cfg0.win 3).cut (grid0.coords t) ((dat0 V c).after 3 t) = _
  rw [after0_3]
  unfold out0_3
  rw [View.canon_unit_zero zero_offsets]
  simp only [View.ld_unit_zero (S := S2000x64) zero_offsets, View.ld_unit_zero (S := S64x64) zero_offsets, View.ld_unit_zero (S := S1x64) zero_offsets]
  obtain ⟨e0, e1, e2, e3, e4, e5, e6, e7⟩ := blocks0 t
  funext j
  refine (dense_body0 _ _ _ j).trans ?_
  show FloatOps.addf (F := Ideal) (φ := .f32)
      (∑ k : Fin 64, FloatOps.mulf (F := Ideal) (φ := .f32) (V c main_arg0 (((cfg0.win 0).blk t).view.emb (ix2 (Cert.Gcn.row j) k)))
        (V c main_v29 (((cfg0.win 1).blk t).view.emb (ix2 k (Cert.Gcn.col j)))))
      (V c main_v30 (((cfg0.win 2).blk t).view.emb (ix2 (0 : Fin 1) (Cert.Gcn.col j))))
    = Cert.Gcn.dense64 (V c main_arg0) (V c main_v29) (V c main_v30) (((cfg0.win 3).blk t).view.emb j)
  have hx : ∀ k : Fin 64, ((cfg0.win 0).blk t).view.emb (ix2 (Cert.Gcn.row j) k) = ix2 (Cert.Gcn.row (((cfg0.win 3).blk t).view.emb j)) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 64 + 1 * k.val = k.val; omega
  have hw : ∀ k : Fin 64, ((cfg0.win 1).blk t).view.emb (ix2 k (Cert.Gcn.col j)) = ix2 k (Cert.Gcn.col (((cfg0.win 3).blk t).view.emb j)) := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have hb : ((cfg0.win 2).blk t).view.emb (ix2 (0 : Fin 1) (Cert.Gcn.col j)) = ix2 (0 : Fin 1) (Cert.Gcn.col (((cfg0.win 3).blk t).view.emb j)) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  simp only [hx, hw, hb]
  rfl

/-- An index of the output array lies in point `t`'s block iff each coordinate lies in the block's range on its axis. -/
theorem mem_block0 (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v31).slice (win0_3.rect t)).set ↔ _
  rw [View.set_slice_whole, Rect.mem_set_unit]
  exact Iff.rfl

/-- The 25 blocks of 2000 rows cover the output array: row `r` lies in block `r / 2000`. -/
theorem covered0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := blocks_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- After the region its output array holds the affine map of the features, whatever the region found in its buffers. -/
theorem dense_region0 (c : Dev nD) :
    (dat0 (F := Ideal) V c).arrAt 3 cfg0.N = Cert.Gcn.dense64 (V c main_arg0) (V c main_v29) (V c main_v30) :=
  (dat0 (F := Ideal) V c).arrAt_eq_of_cover 3 _ (fun t _ => dense_flushed0 V c t) covered0

end Cert.KernelIdeal.Tiles

end
-- ==== Proof.ScaleTiles1.lean ====
/-
  A message-scaling region (the program's region 1): a gathered row of features times its edge's coefficient,
  8000 edges per grid point.

  Each of the 100 grid points reads block `t` of the gathered rows and block `t` of the coefficient column and writes
  block `t` of the result; the blocks tile the edge axis, so after the region the result array is the one
  whole-array function `g(e, j) · c(e, 0)` of the two arrays the region found.
-/
import proofs.«117141_j22101901705658_2_alg».proof.Proof.Gen.KernelIdeal.Frame
import proofs.«117141_j22101901705658_2_alg».proof.Proof.Layers
import proofs.«117141_j22101901705658_2_alg».proof.Proof.TileBasics

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 8000 edges: the gathered entry times its edge's coefficient. -/
theorem scale_body1 (x0 : Vec Ideal S8000x64 .f32) (x1 : Vec Ideal S8000x1 .f32) (y : S8000x64.Idx) :
    k1_pay1 (F := Ideal) x0 x1 y = x0 y * x1 (ix2 (Cert.Gcn.row y) (0 : Fin 1)) := by
  obtain ⟨p, q, rfl⟩ : ∃ (p : Fin 8000) (q : Fin 64), y = ix2 p q := ⟨y 0, y 1, eq_ix2 y⟩
  unfold k1_pay1
  simp only [shapeCast_self]
  show x0 (ix2 p q) * broadcastTo S8000x64 x1 broadcasts_S8000x1_S8000x64 (ix2 p q) = _
  rw [broadcastTo_a1_ab_apply]

/-- How the three windows' blocks move over the 100 grid points: all along the edge axis with the point, none along the features. -/
theorem blocks1 : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0
    ∧ win1_2.index t (0 : Fin 2) < 100 :=
  (by decide +kernel : ∀ t : Fin grid1.N, _)

/-- Every block of 8000 edges is some grid point's. -/
theorem blocks_onto1 : ∀ q0 : Fin 100, ∃ t : Fin cfg1.N, win1_2.index t = ![q0.val, 0] :=
  (by decide +kernel : ∀ q0 : Fin 100, ∃ t : Fin grid1.N, win1_2.index t = ![q0.val, 0])

/-- What grid point `t` writes back is block `t` of the scaled messages. -/
theorem scale_flushed1 (c : Dev nD) (t : Fin cfg1.N) :
    (dat1 (F := Ideal) V c).flushed 2 t
      = ((cfg1.win 2).blk t).view.read (Elt Ideal) (Cert.Gcn.scale64 (V c main_v38) (V c main_v26)) := by
  show (cfg1.win 2).cut (grid1.coords t) ((dat1 V c).after 2 t) = _
  rw [after1_2]
  unfold out1_2
  rw [View.canon_unit_zero zero_offsets]
  simp only [View.ld_unit_zero (S := S8000x64) zero_offsets, View.ld_unit_zero (S := S8000x1) zero_offsets]
  obtain ⟨e0, e1, e2, e3, e4, e5⟩ := blocks1 t
  funext j
  refine (scale_body1 _ _ j).trans ?_
  show FloatOps.mulf (F := Ideal) (φ := .f32) (V c main_v38 (((cfg1.win 0).blk t).view.emb j)) (V c main_v26 (((cfg1.win 1).blk t).view.emb (ix2 (Cert.Gcn.row j) (0 : Fin 1))))
    = Cert.Gcn.scale64 (V c main_v38) (V c main_v26) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (Cert.Gcn.row j) (0 : Fin 1)) = ix2 (Cert.Gcn.row (((cfg1.win 2).blk t).view.emb j)) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [h0, h1]
  rfl

/-- An index of the output array lies in point `t`'s block iff each coordinate lies in the block's range on its axis. -/
theorem mem_block1 (t : Fin cfg1.N) (i : S800000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v39).slice (win1_2.rect t)).set ↔ _
  rw [View.set_slice_whole, Rect.mem_set_unit]
  exact Iff.rfl

/-- The 100 blocks of 8000 rows cover the output array: row `r` lies in block `r / 8000`. -/
theorem covered1 (i : S800000x64.Idx) : ∃ t : Fin cfg1.N, (cfg1.win 2).flush t = true ∧ i ∈ ((cfg1.win 2).blk t).view.set := by
  have hi0 : (i 0).val < 800000 := (i 0).isLt
  have hi1 : (i 1).val < 64 := (i 1).isLt
  obtain ⟨t, ht⟩ := blocks_onto1 ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- After the region its output array holds the scaled messages, whatever the region found in its buffers. -/
theorem scale_region1 (c : Dev nD) :
    (dat1 (F := Ideal) V c).arrAt 2 cfg1.N = Cert.Gcn.scale64 (V c main_v38) (V c main_v26) :=
  (dat1 (F := Ideal) V c).arrAt_eq_of_cover 2 _ (fun t _ => scale_flushed1 V c t) covered1

end Cert.KernelIdeal.Tiles

end
-- ==== Proof.CombineTiles2.lean ====
/-
  A combining region (the program's region 2): the scatter-added aggregate plus a node's own features times its
  self-loop coefficient, clamped below at zero, 2000 nodes per grid point.

  Each of the 25 grid points reads block `t` of the aggregate, of the layer's own rows and of the self-loop column, and
  writes block `t` of the result; the blocks tile the node axis, so after the region the result array is the one
  whole-array function `max(agg(r, j) + h(r, j) · s(r, 0), 0)` of the three arrays the region found.
-/
import proofs.«117141_j22101901705658_2_alg».proof.Proof.Gen.KernelIdeal.Frame
import proofs.«117141_j22101901705658_2_alg».proof.Proof.Layers
import proofs.«117141_j22101901705658_2_alg».proof.Proof.TileBasics

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 2000 nodes: the aggregate plus the node's own entry times its
    self-loop coefficient, clamped below at zero. -/
theorem combine_body2 (x0 x1 : Vec Ideal S2000x64 .f32) (x2 : Vec Ideal S2000x1 .f32) (y : S2000x64.Idx) :
    k2_pay1 (F := Ideal) x0 x1 x2 y = max (x0 y + x1 y * x2 (ix2 (Cert.Gcn.row y) (0 : Fin 1))) 0 := by
  obtain ⟨p, q, rfl⟩ : ∃ (p : Fin 2000) (q : Fin 64), y = ix2 p q := ⟨y 0, y 1, eq_ix2 y⟩
  unfold k2_pay1
  simp only [shapeCast_self]
  show max (x0 (ix2 p q) + x1 (ix2 p q) * broadcastTo S2000x64 x2 broadcasts_S2000x1_S2000x64 (ix2 p q)) (Ideal.ofBits .f32 0x00000000#32) = _
  rw [broadcastTo_a1_ab_apply, Ideal.ofBits_zero_f32]

/-- How the four windows' blocks move over the 25 grid points: all along the node axis with the point, none along the features. -/
theorem blocks2 : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) < 25 :=
  (by decide +kernel : ∀ t : Fin grid2.N, _)

/-- Every block of 2000 nodes is some grid point's. -/
theorem blocks_onto2 : ∀ q0 : Fin 25, ∃ t : Fin cfg2.N, win2_3.index t = ![q0.val, 0] :=
  (by decide +kernel : ∀ q0 : Fin 25, ∃ t : Fin grid2.N, win2_3.index t = ![q0.val, 0])

/-- What grid point `t` writes back is block `t` of the combined features. -/
theorem combine_flushed2 (c : Dev nD) (t : Fin cfg2.N) :
    (dat2 (F := Ideal) V c).flushed 3 t
      = ((cfg2.win 3).blk t).view.read (Elt Ideal) (Cert.Gcn.combineRelu64 (V c main_v42) (V c main_v31) (V c main_v28)) := by
  show (cfg2.win 3).cut (grid2.coords t) ((dat2 V c).after 3 t) = _
  rw [after2_3]
  unfold out2_3
  rw [View.canon_unit_zero zero_offsets]
  simp only [View.ld_unit_zero (S := S2000x64) zero_offsets, View.ld_unit_zero (S := S2000x1) zero_offsets]
  obtain ⟨e0, e1, e2, e3, e4, e5, e6, e7⟩ := blocks2 t
  funext j
  refine (combine_body2 _ _ _ j).trans ?_
  show FloatOps.maximumf (F := Ideal) (φ := .f32) (FloatOps.addf (V c main_v42 (((cfg2.win 0).blk t).view.emb j)) (FloatOps.mulf (V c main_v31 (((cfg2.win 1).blk t).view.emb j)) (V c main_v28 (((cfg2.win 2).blk t).view.emb (ix2 (Cert.Gcn.row j) (0 : Fin 1)))))) (0 : EReal)
    = Cert.Gcn.combineRelu64 (V c main_v42) (V c main_v31) (V c main_v28) (((cfg2.win 3).blk t).view.emb j)
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb (ix2 (Cert.Gcn.row j) (0 : Fin 1)) = ix2 (Cert.Gcn.row (((cfg2.win 3).blk t).view.emb j)) (0 : Fin 1) := by
    funext a; apply Fin.ext
    match a with
    | ⟨0, _⟩ => show win2_2.index t (0 : Fin 2) * 2000 + 1 * (j 0).val = win2_3.index t (0 : Fin 2) * 2000 + 1 * (j 0).val; omega
    | ⟨1, _⟩ => show win2_2.index t (1 : Fin 2) * 1 + 1 * 0 = 0; omega
  rw [h0, h1, h2]
  rfl

/-- An index of the output array lies in point `t`'s block iff each coordinate lies in the block's range on its axis. -/
theorem mem_block2 (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v43).slice (win2_3.rect t)).set ↔ _
  rw [View.set_slice_whole, Rect.mem_set_unit]
  exact Iff.rfl

/-- The 25 blocks of 2000 rows cover the output array: row `r` lies in block `r / 2000`. -/
theorem covered2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := blocks_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- After the region its output array holds the combined features, whatever the region found in its buffers. -/
theorem combine_region2 (c : Dev nD) :
    (dat2 (F := Ideal) V c).arrAt 3 cfg2.N = Cert.Gcn.combineRelu64 (V c main_v42) (V c main_v31) (V c main_v28) :=
  (dat2 (F := Ideal) V c).arrAt_eq_of_cover 3 _ (fun t _ => combine_flushed2 V c t) covered2

end Cert.KernelIdeal.Tiles

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.ColumnForms.lean ====
/-
  A vector laid out as a column, or as a row, two ways: the reshape `[a] → [a, 1]` and the broadcast of `[a]` into
  `[a, 1]` along axis 0 are the same array, and so are the reshape `[b] → [1, b]` and the broadcast of `[b]` into
  `[1, b]` along axis 1: entry `(p, 0)`, respectively `(0, c)`, is the vector's entry `p`, respectively `c`.
-/
import proofs.«117141_j22101901705658_2_alg».proof.Proof.TileBasics
import proofs.«117141_j22101901705658_2_alg».proof.Proof.LibHostKeepdims

noncomputable section

namespace Cert.KernelIdeal.Tiles

open Idealize.ShloMosaic Idealize.ShloMosaic.ValueIdx

/-- The column reshape is the column broadcast. -/
theorem shapeCast_col_eq_broadcast {α : Type} {a : ℕ} (x : (⟨1, ![a]⟩ : Shape).Idx → α)
    (h : (⟨1, ![a]⟩ : Shape).ShapeCasts ⟨2, ![a, 1]⟩) (dims : Fin 1 → Fin 2)
    (hb : (⟨1, ![a]⟩ : Shape).BroadcastsInDim ⟨2, ![a, 1]⟩ dims) (hd : dims 0 = 0) :
    shapeCast ⟨2, ![a, 1]⟩ x h = broadcastInDim ⟨2, ![a, 1]⟩ dims hb x := by
  funext i
  obtain ⟨p, u, rfl⟩ : ∃ (p : Fin a) (u : Fin 1), i = ix2 p u := ⟨i 0, i 1, eq_ix2 i⟩
  rw [shapeCast_a_a1_apply, broadcastInDim_a_a1_apply dims hb hd]

/-- The row reshape is the row broadcast. -/
theorem shapeCast_row_eq_broadcast {α : Type} {b : ℕ} (x : (⟨1, ![b]⟩ : Shape).Idx → α)
    (h : (⟨1, ![b]⟩ : Shape).ShapeCasts ⟨2, ![1, b]⟩) (dims : Fin 1 → Fin 2)
    (hb : (⟨1, ![b]⟩ : Shape).BroadcastsInDim ⟨2, ![1, b]⟩ dims) (hd : dims 0 = 1) :
    shapeCast ⟨2, ![1, b]⟩ x h = broadcastInDim ⟨2, ![1, b]⟩ dims hb x := by
  funext i
  obtain ⟨u, c, rfl⟩ : ∃ (u : Fin 1) (c : Fin b), i = ix2 u c := ⟨i 0, i 1, eq_ix2 i⟩
  rw [broadcastInDim_b_1b_apply dims hb hd]
  obtain rfl : u = 0 := Subsingleton.elim _ _
  exact shapeCast_a_1a_apply x h 0 c

end Cert.KernelIdeal.Tiles

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.HostLayers.lean ====
/-
  The dense pieces of a graph-convolution layer as a plain array program spells them, each equal to its
  entry-by-entry function (Layers):

  * `x · wt` by one whole matrix product, plus the bias row broadcast to every row — the affine map;
  * the gathered rows times the coefficient column broadcast along the features — the message scaling;
  * the aggregate plus the layer's own rows times the self-loop column broadcast along the features, then the
    maximum with a broadcast zero — the combination with the clamp; without broadcast or clamp in the last layer,
    which has one feature.

  On the extended reals a matrix product's entry is the plain sum over the contracted axis, whatever order the
  additions are scheduled in, and the float pattern of `+0.0` is the number zero.
-/
import proofs.«117141_j22101901705658_2_alg».proof.ReferenceIdeal
import proofs.«117141_j22101901705658_2_alg».proof.Proof.Gen.ReferenceIdeal
import proofs.«117141_j22101901705658_2_alg».proof.Proof.Layers
import proofs.«117141_j22101901705658_2_alg».proof.Proof.LibHostMatmulNN
import proofs.«117141_j22101901705658_2_alg».proof.Proof.LibHostKeepdims
import Idealize.ShloMosaic.PureOps.Ideal.Laws

noncomputable section

namespace Cert.ReferenceIdeal.HostLayers

open Cert.ReferenceIdeal Cert.ReferenceIdeal.Facts₀ Idealize.ShloMosaic Idealize.ShloMosaic.ValueIdx

/-- The affine map into 64 features. -/
theorem host_dense64 (x : FVec Ideal S50000x64 .f32) (wt : FVec Ideal S64x64 .f32) (b : FVec Ideal S1x64 .f32) :
    addf (Host.dotGeneral dot_S50000x64_S64x64_S50000x64_1_0_0_1_n_n none x wt)
        (broadcastInDim S50000x64 ![0, 1] bcast_S1x64_S50000x64_0_1 b) = Cert.Gcn.dense64 x wt b := by
  funext i
  obtain ⟨p, q, rfl⟩ : ∃ (p : Fin 50000) (q : Fin 64), i = ix2 p q := ⟨i 0, i 1, eq_ix2 i⟩
  rw [addf_apply, Cert.LibHostMatmulNN.hostDot_nn_apply dot_S50000x64_S64x64_S50000x64_1_0_0_1_n_n rfl rfl rfl rfl rfl rfl none x wt p q,
    broadcastInDim_1b_ab_apply ![0, 1] bcast_S1x64_S50000x64_0_1 rfl b p q]
  rfl

/-- The affine map into one feature. -/
theorem host_dense1 (x : FVec Ideal S50000x64 .f32) (wt : FVec Ideal S64x1 .f32) (b : FVec Ideal S1x1 .f32) :
    addf (Host.dotGeneral dot_S50000x64_S64x1_S50000x1_1_0_0_1_n_n none x wt)
        (broadcastInDim S50000x1 ![0, 1] bcast_S1x1_S50000x1_0_1 b) = Cert.Gcn.dense1 x wt b := by
  funext i
  obtain ⟨p, q, rfl⟩ : ∃ (p : Fin 50000) (q : Fin 1), i = ix2 p q := ⟨i 0, i 1, eq_ix2 i⟩
  rw [addf_apply, Cert.LibHostMatmulNN.hostDot_nn_apply dot_S50000x64_S64x1_S50000x1_1_0_0_1_n_n rfl rfl rfl rfl rfl rfl none x wt p q,
    broadcastInDim_1b_ab_apply ![0, 1] bcast_S1x1_S50000x1_0_1 rfl b p q]
  rfl

/-- The message scaling, 64 features. -/
theorem host_scale64 (g : FVec Ideal S800000x64 .f32) (c : FVec Ideal S800000x1 .f32) :
    mulf g (broadcastInDim S800000x64 ![0, 1] bcast_S800000x1_S800000x64_0_1 c) = Cert.Gcn.scale64 g c := by
  funext i
  obtain ⟨p, q, rfl⟩ : ∃ (p : Fin 800000) (q : Fin 64), i = ix2 p q := ⟨i 0, i 1, eq_ix2 i⟩
  rw [mulf_apply, broadcastInDim_a1_ab_apply ![0, 1] bcast_S800000x1_S800000x64_0_1 rfl c p q]
  rfl

/-- The message scaling, one feature: entry by entry. -/
theorem host_scale1 (g c : FVec Ideal S800000x1 .f32) : mulf g c = Cert.Gcn.scale1 g c := rfl

/-- The combination with the clamp, 64 features. -/
theorem host_combineRelu64 (agg h : FVec Ideal S50000x64 .f32) (s : FVec Ideal S50000x1 .f32) :
    maximumf (addf agg (mulf h (broadcastInDim S50000x64 ![0, 1] bcast_S50000x1_S50000x64_0_1 s)))
        (broadcastInDim S50000x64 ![] bcast_S_S50000x64 (constant (F := Ideal) S_ .f32 0x00000000#32))
      = Cert.Gcn.combineRelu64 agg h s := by
  funext i
  obtain ⟨p, q, rfl⟩ : ∃ (p : Fin 50000) (q : Fin 64), i = ix2 p q := ⟨i 0, i 1, eq_ix2 i⟩
  rw [maximumf_apply, addf_apply, mulf_apply, broadcastInDim_a1_ab_apply ![0, 1] bcast_S50000x1_S50000x64_0_1 rfl s p q,
    broadcastInDim_scalar_apply, constant_apply, Ideal.ofBits_zero_f32]
  rfl

/-- The combination without clamp, one feature: entry by entry. -/
theorem host_combine1 (agg h s : FVec Ideal S50000x1 .f32) : addf agg (mulf h s) = Cert.Gcn.combine1 agg h s := rfl

end Cert.ReferenceIdeal.HostLayers

end
-- ==== Proof.RefStages.lean ====
/-
  The plain array program, layer by layer: each layer's three dense results as the entry-by-entry functions of the
  results before them.

  The program computes, per layer, `h = x·Wᵀ + b`, the gathered rows `h(src e, ·)` times `coef(e)`, the scatter-add of
  those over `dst`, and `agg + h · selfc` (then `max(·, 0)` in the first two layers). It recomputes the degree
  normalisation — hence `coef` and `selfc` — in every layer from the same edge list by the same operations, so the
  three copies are one array each. With that, each stage that a tiled kernel computes differently is the
  corresponding whole-array function of Layers applied to the earlier stages.
-/
import proofs.«117141_j22101901705658_2_alg».proof.Proof.Gen.ReferenceIdeal.Read
import proofs.«117141_j22101901705658_2_alg».proof.Proof.HostLayers

noncomputable section

namespace Cert.ReferenceIdeal.Stages

open Cert.ReferenceIdeal Cert.ReferenceIdeal.Read Cert.ReferenceIdeal.HostLayers Idealize.ShloMosaic

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S1x64, .f32⟩ : BufTy).Contents (Elt Ideal)) (x7 : (⟨S1, .f32⟩ : BufTy).Contents (Elt Ideal))

/-! ## The normalisation coefficients are computed once, however often they are spelt -/

/-- The second layer's edge coefficients are the first layer's. -/
theorem coef_second : val_main_v84 (F := Ideal) x1 = val_main_v38 x1 := rfl
/-- The third layer's edge coefficients are the first layer's. -/
theorem coef_third : val_main_v130 (F := Ideal) x1 = val_main_v38 x1 := rfl
/-- The second layer's self-loop coefficients are the first layer's. -/
theorem self_second : val_main_v91 (F := Ideal) x1 = val_main_v45 x1 := rfl
/-- The third layer's self-loop coefficients are the first layer's. -/
theorem self_third : val_main_v136 (F := Ideal) x1 = val_main_v45 x1 := rfl

/-! ## First layer -/

theorem dense_first : val_main_v8 (F := Ideal) x0 x2 x3 = Cert.Gcn.dense64 x0 (val_main_v4 x2) (val_main_v6 x3) :=
  host_dense64 _ _ _

theorem scaled_first : val_main_v40 (F := Ideal) x0 x1 x2 x3 = Cert.Gcn.scale64 (val_main_v37 x0 x1 x2 x3) (val_main_v38 x1) :=
  host_scale64 _ _

theorem out_first : val_main_v49 (F := Ideal) x0 x1 x2 x3
    = Cert.Gcn.combineRelu64 (val_main_v43 x0 x1 x2 x3) (val_main_v8 x0 x2 x3) (val_main_v45 x1) :=
  host_combineRelu64 _ _ _

/-! ## Second layer -/

theorem dense_second : val_main_v54 (F := Ideal) x0 x1 x2 x3 x4 x5
    = Cert.Gcn.dense64 (val_main_v49 x0 x1 x2 x3) (val_main_v50 x4) (val_main_v52 x5) :=
  host_dense64 _ _ _

theorem scaled_second : val_main_v86 (F := Ideal) x0 x1 x2 x3 x4 x5
    = Cert.Gcn.scale64 (val_main_v83 x0 x1 x2 x3 x4 x5) (val_main_v38 x1) :=
  (host_scale64 _ _).trans (by rw [coef_second])

theorem out_second : val_main_v95 (F := Ideal) x0 x1 x2 x3 x4 x5
    = Cert.Gcn.combineRelu64 (val_main_v89 x0 x1 x2 x3 x4 x5) (val_main_v54 x0 x1 x2 x3 x4 x5) (val_main_v45 x1) :=
  (host_combineRelu64 _ _ _).trans (by rw [self_second])

/-! ## Third layer: one output feature, no clamp -/

theorem dense_third : val_main_v100 (F := Ideal) x0 x1 x2 x3 x4 x5 x6 x7
    = Cert.Gcn.dense1 (val_main_v95 x0 x1 x2 x3 x4 x5) (val_main_v96 x6) (val_main_v98 x7) :=
  host_dense1 _ _ _

theorem scaled_third : val_main_v131 (F := Ideal) x0 x1 x2 x3 x4 x5 x6 x7
    = Cert.Gcn.scale1 (val_main_v129 x0 x1 x2 x3 x4 x5 x6 x7) (val_main_v38 x1) :=
  (host_scale1 _ _).trans (by rw [coef_third])

theorem out_third : val_main_v138 (F := Ideal) x0 x1 x2 x3 x4 x5 x6 x7
    = Cert.Gcn.combine1 (val_main_v134 x0 x1 x2 x3 x4 x5 x6 x7) (val_main_v100 x0 x1 x2 x3 x4 x5 x6 x7) (val_main_v45 x1) :=
  (host_combine1 _ _ _).trans (by rw [self_third])

end Cert.ReferenceIdeal.Stages

end
-- ==== Proof.ChainLayer1.lean ====
/-
  Reading the kernel's chain of segments, layer 1: the normalisation coefficients and the first layer (boundaries 1–6).

  The program's run passes eighteen boundaries — after each of nine stretches of host operations and each of nine
  tiled regions. At every boundary, each buffer that a later step still reads is shown to hold the plain array
  program's corresponding intermediate array (a named stage of its run, as a function of the arguments):
  a buffer a host stretch writes is that stretch's operations applied to buffers already identified — the same
  operations the plain program applies, a reshape to a column or row being the plain program's broadcast —; a
  region's output array is the whole-array function of its inputs that the tiles compute, which is the plain
  program's stage; and a buffer nobody writes keeps what it held.
-/
import proofs.«117141_j22101901705658_2_alg».proof.Proof.Gen.KernelIdeal.Frame
import proofs.«117141_j22101901705658_2_alg».proof.Proof.DenseTiles0
import proofs.«117141_j22101901705658_2_alg».proof.Proof.ScaleTiles1
import proofs.«117141_j22101901705658_2_alg».proof.Proof.CombineTiles2
import proofs.«117141_j22101901705658_2_alg».proof.Proof.ColumnForms
import proofs.«117141_j22101901705658_2_alg».proof.Proof.RefStages

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

/-- A buffer that no operation of a host stretch writes holds after the stretch what it held before it. -/
macro "host_keeps" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg) (c : Dev nD)

/-! ## Boundary 1: after the host stretch 0 -/
theorem W1_arg0 : W1 m ρ c (Proc.devRef .tc main_arg0) = (m ((c : Thread nD τ).loc main_arg0)) :=
  (by host_keeps hostOps0 : W1 m ρ c (Proc.devRef .tc main_arg0) = W0 m ρ c (Proc.devRef .tc main_arg0)).trans rfl
theorem W1_arg4 : W1 m ρ c (Proc.devRef .tc main_arg4) = (m ((c : Thread nD τ).loc main_arg4)) :=
  (by host_keeps hostOps0 : W1 m ρ c (Proc.devRef .tc main_arg4) = W0 m ρ c (Proc.devRef .tc main_arg4)).trans rfl
theorem W1_arg5 : W1 m ρ c (Proc.devRef .tc main_arg5) = (m ((c : Thread nD τ).loc main_arg5)) :=
  (by host_keeps hostOps0 : W1 m ρ c (Proc.devRef .tc main_arg5) = W0 m ρ c (Proc.devRef .tc main_arg5)).trans rfl
theorem W1_arg6 : W1 m ρ c (Proc.devRef .tc main_arg6) = (m ((c : Thread nD τ).loc main_arg6)) :=
  (by host_keeps hostOps0 : W1 m ρ c (Proc.devRef .tc main_arg6) = W0 m ρ c (Proc.devRef .tc main_arg6)).trans rfl
theorem W1_arg7 : W1 m ρ c (Proc.devRef .tc main_arg7) = (m ((c : Thread nD τ).loc main_arg7)) :=
  (by host_keeps hostOps0 : W1 m ρ c (Proc.devRef .tc main_arg7) = W0 m ρ c (Proc.devRef .tc main_arg7)).trans rfl
set_option maxHeartbeats 1000000 in
theorem W1_v1 : W1 m ρ c (Proc.devRef .tc main_v1) = Cert.ReferenceIdeal.Read.val_main_v1 (m ((c : Thread nD τ).loc main_arg1)) := by
  show StableHlo.after hostOps0 (W0 m ρ c) (Proc.devRef .tc main_v1) = _
  after_results_simp
  rfl
set_option maxHeartbeats 1000000 in
theorem W1_v3 : W1 m ρ c (Proc.devRef .tc main_v3) = Cert.ReferenceIdeal.Read.val_main_v3 (m ((c : Thread nD τ).loc main_arg1)) := by
  show StableHlo.after hostOps0 (W0 m ρ c) (Proc.devRef .tc main_v3) = _
  after_results_simp
  rfl
set_option maxHeartbeats 1000000 in
theorem W1_v26 : W1 m ρ c (Proc.devRef .tc main_v26) = Cert.ReferenceIdeal.Read.val_main_v38 (m ((c : Thread nD τ).loc main_arg1)) := by
  show StableHlo.after hostOps0 (W0 m ρ c) (Proc.devRef .tc main_v26) = _
  after_results_simp
  refine (Cert.KernelIdeal.Tiles.shapeCast_col_eq_broadcast _ _ ![0] Cert.ReferenceIdeal.Facts₀.bcast_S800000_S800000x1_0 rfl).trans ?_
  rfl
set_option maxHeartbeats 1000000 in
theorem W1_v28 : W1 m ρ c (Proc.devRef .tc main_v28) = Cert.ReferenceIdeal.Read.val_main_v45 (m ((c : Thread nD τ).loc main_arg1)) := by
  show StableHlo.after hostOps0 (W0 m ρ c) (Proc.devRef .tc main_v28) = _
  after_results_simp
  refine (Cert.KernelIdeal.Tiles.shapeCast_col_eq_broadcast _ _ ![0] Cert.ReferenceIdeal.Facts₀.bcast_S50000_S50000x1_0 rfl).trans ?_
  rfl
set_option maxHeartbeats 1000000 in
theorem W1_v29 : W1 m ρ c (Proc.devRef .tc main_v29) = Cert.ReferenceIdeal.Read.val_main_v4 (m ((c : Thread nD τ).loc main_arg2)) := by
  show StableHlo.after hostOps0 (W0 m ρ c) (Proc.devRef .tc main_v29) = _
  after_results_simp
  rfl
set_option maxHeartbeats 1000000 in
theorem W1_v30 : W1 m ρ c (Proc.devRef .tc main_v30) = Cert.ReferenceIdeal.Read.val_main_v6 (m ((c : Thread nD τ).loc main_arg3)) := by
  show StableHlo.after hostOps0 (W0 m ρ c) (Proc.devRef .tc main_v30) = _
  after_results_simp
  refine (Cert.KernelIdeal.Tiles.shapeCast_row_eq_broadcast _ _ ![1] Cert.ReferenceIdeal.Facts₀.bcast_S64_S1x64_1 rfl).trans ?_
  rfl

/-! ## Boundary 2: after region 0 -/
theorem W2_v31 : W2 m ρ c (Proc.devRef .tc main_v31) = Cert.ReferenceIdeal.Read.val_main_v8 (m ((c : Thread nD τ).loc main_arg0)) (m ((c : Thread nD τ).loc main_arg2)) (m ((c : Thread nD τ).loc main_arg3)) := by
  refine (W2_arr m ρ c 3).trans ((Cert.KernelIdeal.Tiles.dense_region0 (V1 m ρ) c).trans ?_)
  show Cert.Gcn.dense64 (W1 m ρ c (Proc.devRef .tc main_arg0)) (W1 m ρ c (Proc.devRef .tc main_v29)) (W1 m ρ c (Proc.devRef .tc main_v30)) = _
  rw [W1_arg0 m ρ c, W1_v29 m ρ c, W1_v30 m ρ c]
  exact (Cert.ReferenceIdeal.Stages.dense_first (m ((c : Thread nD τ).loc main_arg0)) (m ((c : Thread nD τ).loc main_arg2)) (m ((c : Thread nD τ).loc main_arg3))).symm
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_v1 : W2 m ρ c (Proc.devRef .tc main_v1) = Cert.ReferenceIdeal.Read.val_main_v1 (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (m ((c : Thread nD τ).loc main_arg1)) :=
  (W2_of_ne m ρ c main_v3 (by decide)).trans (W1_v3 m ρ c)
theorem W2_v26 : W2 m ρ c (Proc.devRef .tc main_v26) = Cert.ReferenceIdeal.Read.val_main_v38 (m ((c : Thread nD τ).loc main_arg1)) :=
  (W2_of_ne m ρ c main_v26 (by decide)).trans (W1_v26 m ρ c)
theorem W2_v28 : W2 m ρ c (Proc.devRef .tc main_v28) = Cert.ReferenceIdeal.Read.val_main_v45 (m ((c : Thread nD τ).loc main_arg1)) :=
  (W2_of_ne m ρ c main_v28 (by decide)).trans (W1_v28 m ρ c)

/-! ## Boundary 3: after the host stretch 1 -/
set_option maxHeartbeats 1000000 in
theorem W3_v38 : W3 m ρ c (Proc.devRef .tc main_v38) = Cert.ReferenceIdeal.Read.val_main_v37 (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v38) = _
  after_results_simp
  rw [W2_v31 m ρ c, W2_v1 m ρ c]
  rfl
theorem W3_arg4 : W3 m ρ c (Proc.devRef .tc main_arg4) = (m ((c : Thread nD τ).loc main_arg4)) :=
  (by host_keeps hostOps1 : W3 m ρ c (Proc.devRef .tc main_arg4) = W2 m ρ c (Proc.devRef .tc main_arg4)).trans (W2_arg4 m ρ c)
theorem W3_arg5 : W3 m ρ c (Proc.devRef .tc main_arg5) = (m ((c : Thread nD τ).loc main_arg5)) :=
  (by host_keeps hostOps1 : W3 m ρ c (Proc.devRef .tc main_arg5) = W2 m ρ c (Proc.devRef .tc main_arg5)).trans (W2_arg5 m ρ c)
theorem W3_arg6 : W3 m ρ c (Proc.devRef .tc main_arg6) = (m ((c : Thread nD τ).loc main_arg6)) :=
  (by host_keeps hostOps1 : W3 m ρ c (Proc.devRef .tc main_arg6) = W2 m ρ c (Proc.devRef .tc main_arg6)).trans (W2_arg6 m ρ c)
theorem W3_arg7 : W3 m ρ c (Proc.devRef .tc main_arg7) = (m ((c : Thread nD τ).loc main_arg7)) :=
  (by host_keeps hostOps1 : W3 m ρ c (Proc.devRef .tc main_arg7) = W2 m ρ c (Proc.devRef .tc main_arg7)).trans (W2_arg7 m ρ c)
theorem W3_v1 : W3 m ρ c (Proc.devRef .tc main_v1) = Cert.ReferenceIdeal.Read.val_main_v1 (m ((c : Thread nD τ).loc main_arg1)) :=
  (by host_keeps hostOps1 : W3 m ρ c (Proc.devRef .tc main_v1) = W2 m ρ c (Proc.devRef .tc main_v1)).trans (W2_v1 m ρ c)
theorem W3_v3 : W3 m ρ c (Proc.devRef .tc main_v3) = Cert.ReferenceIdeal.Read.val_main_v3 (m ((c : Thread nD τ).loc main_arg1)) :=
  (by host_keeps hostOps1 : W3 m ρ c (Proc.devRef .tc main_v3) = W2 m ρ c (Proc.devRef .tc main_v3)).trans (W2_v3 m ρ c)
theorem W3_v26 : W3 m ρ c (Proc.devRef .tc main_v26) = Cert.ReferenceIdeal.Read.val_main_v38 (m ((c : Thread nD τ).loc main_arg1)) :=
  (by host_keeps hostOps1 : W3 m ρ c (Proc.devRef .tc main_v26) = W2 m ρ c (Proc.devRef .tc main_v26)).trans (W2_v26 m ρ c)
theorem W3_v28 : W3 m ρ c (Proc.devRef .tc main_v28) = Cert.ReferenceIdeal.Read.val_main_v45 (m ((c : Thread nD τ).loc main_arg1)) :=
  (by host_keeps hostOps1 : W3 m ρ c (Proc.devRef .tc main_v28) = W2 m ρ c (Proc.devRef .tc main_v28)).trans (W2_v28 m ρ c)
theorem W3_v31 : W3 m ρ c (Proc.devRef .tc main_v31) = Cert.ReferenceIdeal.Read.val_main_v8 (m ((c : Thread nD τ).loc main_arg0)) (m ((c : Thread nD τ).loc main_arg2)) (m ((c : Thread nD τ).loc main_arg3)) :=
  (by host_keeps hostOps1 : W3 m ρ c (Proc.devRef .tc main_v31) = W2 m ρ c (Proc.devRef .tc main_v31)).trans (W2_v31 m ρ c)

/-! ## Boundary 4: after region 1 -/
theorem W4_v39 : W4 m ρ c (Proc.devRef .tc main_v39) = Cert.ReferenceIdeal.Read.val_main_v40 (m ((c : Thread nD τ).loc main_arg0)) (m ((c : Thread nD τ).loc main_arg1)) (m ((c : Thread nD τ).loc main_arg2)) (m ((c : Thread nD τ).loc main_arg3)) := by
  refine (W4_arr m ρ c 2).trans ((Cert.KernelIdeal.Tiles.scale_region1 (V3 m ρ) c).trans ?_)
  show Cert.Gcn.scale64 (W3 m ρ c (Proc.devRef .tc main_v38)) (W3 m ρ c (Proc.devRef .tc main_v26)) = _
  rw [W3_v38 m ρ c, W3_v26 m ρ c]
  exact (Cert.ReferenceIdeal.Stages.scaled_first (m ((c : Thread nD τ).loc main_arg0)) (m ((c : Thread nD τ).loc main_arg1)) (m ((c : Thread nD τ).loc main_arg2)) (m ((c : Thread nD τ).loc main_arg3))).symm
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_v1 : W4 m ρ c (Proc.devRef .tc main_v1) = Cert.ReferenceIdeal.Read.val_main_v1 (m ((c : Thread nD τ).loc main_arg1)) :=
  (W4_of_ne m ρ c main_v1 (by decide)).trans (W3_v1 m ρ c)
theorem W4_v3 : W4 m ρ c (Proc.devRef .tc main_v3) = Cert.ReferenceIdeal.Read.val_main_v3 (m ((c : Thread nD τ).loc main_arg1)) :=
  (W4_of_ne m ρ c main_v3 (by decide)).trans (W3_v3 m ρ c)
theorem W4_v26 : W4 m ρ c (Proc.devRef .tc main_v26) = Cert.ReferenceIdeal.Read.val_main_v38 (m ((c : Thread nD τ).loc main_arg1)) :=
  ((W4_arr m ρ c 1).trans (((dat1 (V3 m ρ) c).arrAt_in 1 rfl _).trans (A_eq1 (V3 m ρ) c 1))).trans (W3_v26 m ρ c)
theorem W4_v28 : W4 m ρ c (Proc.devRef .tc main_v28) = Cert.ReferenceIdeal.Read.val_main_v45 (m ((c : Thread nD τ).loc main_arg1)) :=
  (W4_of_ne m ρ c main_v28 (by decide)).trans (W3_v28 m ρ c)
theorem W4_v31 : W4 m ρ c (Proc.devRef .tc main_v31) = Cert.ReferenceIdeal.Read.val_main_v8 (m ((c : Thread nD τ).loc main_arg0)) (m ((c : Thread nD τ).loc main_arg2)) (m ((c : Thread nD τ).loc main_arg3)) :=
  (W4_of_ne m ρ c main_v31 (by decide)).trans (W3_v31 m ρ c)

/-! ## Boundary 5: after the host stretch 2 -/
set_option maxHeartbeats 1000000 in
theorem W5_v42 : W5 m ρ c (Proc.devRef .tc main_v42) = Cert.ReferenceIdeal.Read.val_main_v43 (m ((c : Thread nD τ).loc main_arg0)) (m ((c : Thread nD τ).loc main_arg1)) (m ((c : Thread nD τ).loc main_arg2)) (m ((c : Thread nD τ).loc main_arg3)) := by
  show StableHlo.after hostOps2 (W4 m ρ c) (Proc.devRef .tc main_v42) = _
  after_results_simp
  rw [W4_v3 m ρ c, W4_v39 m ρ c]
  rfl
theorem W5_arg4 : W5 m ρ c (Proc.devRef .tc main_arg4) = (m ((c : Thread nD τ).loc main_arg4)) :=
  (by host_keeps hostOps2 : W5 m ρ c (Proc.devRef .tc main_arg4) = W4 m ρ c (Proc.devRef .tc main_arg4)).trans (W4_arg4 m ρ c)
theorem W5_arg5 : W5 m ρ c (Proc.devRef .tc main_arg5) = (m ((c : Thread nD τ).loc main_arg5)) :=
  (by host_keeps hostOps2 : W5 m ρ c (Proc.devRef .tc main_arg5) = W4 m ρ c (Proc.devRef .tc main_arg5)).trans (W4_arg5 m ρ c)
theorem W5_arg6 : W5 m ρ c (Proc.devRef .tc main_arg6) = (m ((c : Thread nD τ).loc main_arg6)) :=
  (by host_keeps hostOps2 : W5 m ρ c (Proc.devRef .tc main_arg6) = W4 m ρ c (Proc.devRef .tc main_arg6)).trans (W4_arg6 m ρ c)
theorem W5_arg7 : W5 m ρ c (Proc.devRef .tc main_arg7) = (m ((c : Thread nD τ).loc main_arg7)) :=
  (by host_keeps hostOps2 : W5 m ρ c (Proc.devRef .tc main_arg7) = W4 m ρ c (Proc.devRef .tc main_arg7)).trans (W4_arg7 m ρ c)
theorem W5_v1 : W5 m ρ c (Proc.devRef .tc main_v1) = Cert.ReferenceIdeal.Read.val_main_v1 (m ((c : Thread nD τ).loc main_arg1)) :=
  (by host_keeps hostOps2 : W5 m ρ c (Proc.devRef .tc main_v1) = W4 m ρ c (Proc.devRef .tc main_v1)).trans (W4_v1 m ρ c)
theorem W5_v3 : W5 m ρ c (Proc.devRef .tc main_v3) = Cert.ReferenceIdeal.Read.val_main_v3 (m ((c : Thread nD τ).loc main_arg1)) :=
  (by host_keeps hostOps2 : W5 m ρ c (Proc.devRef .tc main_v3) = W4 m ρ c (Proc.devRef .tc main_v3)).trans (W4_v3 m ρ c)
theorem W5_v26 : W5 m ρ c (Proc.devRef .tc main_v26) = Cert.ReferenceIdeal.Read.val_main_v38 (m ((c : Thread nD τ).loc main_arg1)) :=
  (by host_keeps hostOps2 : W5 m ρ c (Proc.devRef .tc main_v26) = W4 m ρ c (Proc.devRef .tc main_v26)).trans (W4_v26 m ρ c)
theorem W5_v28 : W5 m ρ c (Proc.devRef .tc main_v28) = Cert.ReferenceIdeal.Read.val_main_v45 (m ((c : Thread nD τ).loc main_arg1)) :=
  (by host_keeps hostOps2 : W5 m ρ c (Proc.devRef .tc main_v28) = W4 m ρ c (Proc.devRef .tc main_v28)).trans (W4_v28 m ρ c)
theorem W5_v31 : W5 m ρ c (Proc.devRef .tc main_v31) = Cert.ReferenceIdeal.Read.val_main_v8 (m ((c : Thread nD τ).loc main_arg0)) (m ((c : Thread nD τ).loc main_arg2)) (m ((c : Thread nD τ).loc main_arg3)) :=
  (by host_keeps hostOps2 : W5 m ρ c (Proc.devRef .tc main_v31) = W4 m ρ c (Proc.devRef .tc main_v31)).trans (W4_v31 m ρ c)

/-! ## Boundary 6: after region 2 -/
theorem W6_v43 : W6 m ρ c (Proc.devRef .tc main_v43) = Cert.ReferenceIdeal.Read.val_main_v49 (m ((c : Thread nD τ).loc main_arg0)) (m ((c : Thread nD τ).loc main_arg1)) (m ((c : Thread nD τ).loc main_arg2)) (m ((c : Thread nD τ).loc main_arg3)) := by
  refine (W6_arr m ρ c 3).trans ((Cert.KernelIdeal.Tiles.combine_region2 (V5 m ρ) c).trans ?_)
  show Cert.Gcn.combineRelu64 (W5 m ρ c (Proc.devRef .tc main_v42)) (W5 m ρ c (Proc.devRef .tc main_v31)) (W5 m ρ c (Proc.devRef .tc main_v28)) = _
  rw [W5_v42 m ρ c, W5_v31 m ρ c, W5_v28 m ρ c]
  exact (Cert.ReferenceIdeal.Stages.out_first (m ((c : Thread nD τ).loc main_arg0)) (m ((c : Thread nD τ).loc main_arg1)) (m ((c : Thread nD τ).loc main_arg2)) (m ((c : Thread nD τ).loc main_arg3))).symm
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)
theorem W6_v1 : W6 m ρ c (Proc.devRef .tc main_v1) = Cert.ReferenceIdeal.Read.val_main_v1 (m ((c : Thread nD τ).loc main_arg1)) :=
  (W6_of_ne m ρ c main_v1 (by decide)).trans (W5_v1 m ρ c)
theorem W6_v3 : W6 m ρ c (Proc.devRef .tc main_v3) = Cert.ReferenceIdeal.Read.val_main_v3 (m ((c : Thread nD τ).loc main_arg1)) :=
  (W6_of_ne m ρ c main_v3 (by decide)).trans (W5_v3 m ρ c)
theorem W6_v26 : W6 m ρ c (Proc.devRef .tc main_v26) = Cert.ReferenceIdeal.Read.val_main_v38 (m ((c : Thread nD τ).loc main_arg1)) :=
  (W6_of_ne m ρ c main_v26 (by decide)).trans (W5_v26 m ρ c)
theorem W6_v28 : W6 m ρ c (Proc.devRef .tc main_v28) = Cert.ReferenceIdeal.Read.val_main_v45 (m ((c : Thread nD τ).loc main_arg1)) :=
  ((W6_arr m ρ c 2).trans (((dat2 (V5 m ρ) c).arrAt_in 2 rfl _).trans (A_eq2 (V5 m ρ) c 2))).trans (W5_v28 m ρ c)

end Cert.KernelIdeal.Chain

end
-- ==== Proof.DenseTiles3.lean ====
/-
  A dense region (the program's region 3): the affine map `x · wt + b` into 64 features, 2000 nodes per grid point.

  Each of the 25 grid points reads block `t` of the features, the whole weight matrix and the whole bias row, and
  writes block `t` of the result. Row `r` of the result depends on row `r` of the features only, so the blocks of
  the result are the blocks of ONE whole-array function, `Σ_k x(r, k) · wt(k, j) + b(0, j)`; they tile the node axis.
-/
import proofs.«117141_j22101901705658_2_alg».proof.Proof.Gen.KernelIdeal.Frame
import proofs.«117141_j22101901705658_2_alg».proof.Proof.Layers
import proofs.«117141_j22101901705658_2_alg».proof.Proof.TileBasics
import proofs.«117141_j22101901705658_2_alg».proof.Proof.LibMatmulNN

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 2000 nodes: the row of the block against the column of the
    weights, plus the bias at that column. The casts to the narrower float format are the identity on the extended
    reals, and the product into a zero accumulator is the plain sum over the 64 contracted positions. -/
theorem dense_body3 (x0 : Vec Ideal S2000x64 .f32) (x1 : Vec Ideal S64x64 .f32) (x2 : Vec Ideal S1x64 .f32) (y : S2000x64.Idx) :
    k3_pay1 (F := Ideal) x0 x1 x2 y
      = (∑ k : Fin 64, x0 (ix2 (Cert.Gcn.row y) k) * x1 (ix2 k (Cert.Gcn.col y))) + x2 (ix2 (0 : Fin 1) (Cert.Gcn.col y)) := by
  obtain ⟨p, q, rfl⟩ : ∃ (p : Fin 2000) (q : Fin 64), y = ix2 p q := ⟨y 0, y 1, eq_ix2 y⟩
  unfold k3_pay1
  simp only [shapeCast_self]
  show matmul (F := Ideal) dot_S2000x64_S64x64_S2000x64_1_0_0_1_n_n none (truncf (F := Ideal) .bf16 x0 bitsLt_bf16_f32) (truncf (F := Ideal) .bf16 x1 bitsLt_bf16_f32) (constant (F := Ideal) S2000x64 .f32 0x00000000#32) (ix2 p q)
      + broadcastTo S2000x64 x2 broadcasts_S1x64_S2000x64 (ix2 p q) = _
  rw [Cert.LibMatmulNN.matmul_nn_apply dot_S2000x64_S64x64_S2000x64_1_0_0_1_n_n rfl rfl rfl rfl rfl rfl none (truncf (F := Ideal) .bf16 x0 bitsLt_bf16_f32) (truncf (F := Ideal) .bf16 x1 bitsLt_bf16_f32) p q,
    broadcastTo_1b_ab_apply]
  rfl

/-- How the four windows' blocks move over the 25 grid points: the features and the result along the node axis with
    the point; the weights and the bias are one block, the same at every point. -/
theorem blocks3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) < 25 :=
  (by decide +kernel : ∀ t : Fin grid3.N, _)

/-- Every block of 2000 nodes is some grid point's. -/
theorem blocks_onto3 : ∀ q0 : Fin 25, ∃ t : Fin cfg3.N, win3_3.index t = ![q0.val, 0] :=
  (by decide +kernel : ∀ q0 : Fin 25, ∃ t : Fin grid3.N, win3_3.index t = ![q0.val, 0])

/-- What grid point `t` writes back is block `t` of the affine map of the whole arrays. -/
theorem dense_flushed3 (c : Dev nD) (t : Fin cfg3.N) :
    (dat3 (F := Ideal) V c).flushed 3 t
      = ((cfg3.win 3).blk t).view.read (Elt Ideal) (Cert.Gcn.dense64 (V c main_v43) (V c main_v44) (V c main_v45)) := by
  show (cfg3.win 3).cut (grid3.coords t) ((dat3 V c).after 3 t) = _
  rw [after3_3]
  unfold out3_3
  rw [View.canon_unit_zero zero_offsets]
  simp only [View.ld_unit_zero (S := S2000x64) zero_offsets, View.ld_unit_zero (S := S64x64) zero_offsets, View.ld_unit_zero (S := S1x64) zero_offsets]
  obtain ⟨e0, e1, e2, e3, e4, e5, e6, e7⟩ := blocks3 t
  funext j
  refine (dense_body3 _ _ _ j).trans ?_
  show FloatOps.addf (F := Ideal) (φ := .f32)
      (∑ k : Fin 64, FloatOps.mulf (F := Ideal) (φ := .f32) (V c main_v43 (((cfg3.win 0).blk t).view.emb (ix2 (Cert.Gcn.row j) k)))
        (V c main_v44 (((cfg3.win 1).blk t).view.emb (ix2 k (Cert.Gcn.col j)))))
      (V c main_v45 (((cfg3.win 2).blk t).view.emb (ix2 (0 : Fin 1) (Cert.Gcn.col j))))
    = Cert.Gcn.dense64 (V c main_v43) (V c main_v44) (V c main_v45) (((cfg3.win 3).blk t).view.emb j)
  have hx : ∀ k : Fin 64, ((cfg3.win 0).blk t).view.emb (ix2 (Cert.Gcn.row j) k) = ix2 (Cert.Gcn.row (((cfg3.win 3).blk t).view.emb j)) k := fun k => by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 64 + 1 * k.val = k.val; omega
  have hw : ∀ k : Fin 64, ((cfg3.win 1).blk t).view.emb (ix2 k (Cert.Gcn.col j)) = ix2 k (Cert.Gcn.col (((cfg3.win 3).blk t).view.emb j)) := fun k => by
    funext a; apply Fin.ext
    match a with
    | ⟨0, _⟩ => show win3_1.index t (0 : Fin 2) * 64 + 1 * k.val = k.val; omega
    | ⟨1, _⟩ => show win3_1.index t (1 : Fin 2) * 64 + 1 * (j 1).val = win3_3.index t (1 : Fin 2) * 64 + 1 * (j 1).val; omega
  have hb : ((cfg3.win 2).blk t).view.emb (ix2 (0 : Fin 1) (Cert.Gcn.col j)) = ix2 (0 : Fin 1) (Cert.Gcn.col (((cfg3.win 3).blk t).view.emb j)) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega
  simp only [hx, hw, hb]
  rfl

/-- An index of the output array lies in point `t`'s block iff each coordinate lies in the block's range on its axis. -/
theorem mem_block3 (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v46).slice (win3_3.rect t)).set ↔ _
  rw [View.set_slice_whole, Rect.mem_set_unit]
  exact Iff.rfl

/-- The 25 blocks of 2000 rows cover the output array: row `r` lies in block `r / 2000`. -/
theorem covered3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := blocks_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- After the region its output array holds the affine map of the features, whatever the region found in its buffers. -/
theorem dense_region3 (c : Dev nD) :
    (dat3 (F := Ideal) V c).arrAt 3 cfg3.N = Cert.Gcn.dense64 (V c main_v43) (V c main_v44) (V c main_v45) :=
  (dat3 (F := Ideal) V c).arrAt_eq_of_cover 3 _ (fun t _ => dense_flushed3 V c t) covered3

end Cert.KernelIdeal.Tiles

end
-- ==== Proof.ScaleTiles4.lean ====
/-
  A message-scaling region (the program's region 4): a gathered row of features times its edge's coefficient,
  8000 edges per grid point.

  Each of the 100 grid points reads block `t` of the gathered rows and block `t` of the coefficient column and writes
  block `t` of the result; the blocks tile the edge axis, so after the region the result array is the one
  whole-array function `g(e, j) · c(e, 0)` of the two arrays the region found.
-/
import proofs.«117141_j22101901705658_2_alg».proof.Proof.Gen.KernelIdeal.Frame
import proofs.«117141_j22101901705658_2_alg».proof.Proof.Layers
import proofs.«117141_j22101901705658_2_alg».proof.Proof.TileBasics

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 8000 edges: the gathered entry times its edge's coefficient. -/
theorem scale_body4 (x0 : Vec Ideal S8000x64 .f32) (x1 : Vec Ideal S8000x1 .f32) (y : S8000x64.Idx) :
    k4_pay1 (F := Ideal) x0 x1 y = x0 y * x1 (ix2 (Cert.Gcn.row y) (0 : Fin 1)) := by
  obtain ⟨p, q, rfl⟩ : ∃ (p : Fin 8000) (q : Fin 64), y = ix2 p q := ⟨y 0, y 1, eq_ix2 y⟩
  unfold k4_pay1
  simp only [shapeCast_self]
  show x0 (ix2 p q) * broadcastTo S8000x64 x1 broadcasts_S8000x1_S8000x64 (ix2 p q) = _
  rw [broadcastTo_a1_ab_apply]

/-- How the three windows' blocks move over the 100 grid points: all along the edge axis with the point, none along the features. -/
theorem blocks4 : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (1 : Fin 2) = 0
    ∧ win4_2.index t (0 : Fin 2) < 100 :=
  (by decide +kernel : ∀ t : Fin grid4.N, _)

/-- Every block of 8000 edges is some grid point's. -/
theorem blocks_onto4 : ∀ q0 : Fin 100, ∃ t : Fin cfg4.N, win4_2.index t = ![q0.val, 0] :=
  (by decide +kernel : ∀ q0 : Fin 100, ∃ t : Fin grid4.N, win4_2.index t = ![q0.val, 0])

/-- What grid point `t` writes back is block `t` of the scaled messages. -/
theorem scale_flushed4 (c : Dev nD) (t : Fin cfg4.N) :
    (dat4 (F := Ideal) V c).flushed 2 t
      = ((cfg4.win 2).blk t).view.read (Elt Ideal) (Cert.Gcn.scale64 (V c main_v53) (V c main_v26)) := by
  show (cfg4.win 2).cut (grid4.coords t) ((dat4 V c).after 2 t) = _
  rw [after4_2]
  unfold out4_2
  rw [View.canon_unit_zero zero_offsets]
  simp only [View.ld_unit_zero (S := S8000x64) zero_offsets, View.ld_unit_zero (S := S8000x1) zero_offsets]
  obtain ⟨e0, e1, e2, e3, e4, e5⟩ := blocks4 t
  funext j
  refine (scale_body4 _ _ j).trans ?_
  show FloatOps.mulf (F := Ideal) (φ := .f32) (V c main_v53 (((cfg4.win 0).blk t).view.emb j)) (V c main_v26 (((cfg4.win 1).blk t).view.emb (ix2 (Cert.Gcn.row j) (0 : Fin 1))))
    = Cert.Gcn.scale64 (V c main_v53) (V c main_v26) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (Cert.Gcn.row j) (0 : Fin 1)) = ix2 (Cert.Gcn.row (((cfg4.win 2).blk t).view.emb j)) (0 : Fin 1) := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega
  rw [h0, h1]
  rfl

/-- An index of the output array lies in point `t`'s block iff each coordinate lies in the block's range on its axis. -/
theorem mem_block4 (t : Fin cfg4.N) (i : S800000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole main_v54).slice (win4_2.rect t)).set ↔ _
  rw [View.set_slice_whole, Rect.mem_set_unit]
  exact Iff.rfl

/-- The 100 blocks of 8000 rows cover the output array: row `r` lies in block `r / 8000`. -/
theorem covered4 (i : S800000x64.Idx) : ∃ t : Fin cfg4.N, (cfg4.win 2).flush t = true ∧ i ∈ ((cfg4.win 2).blk t).view.set := by
  have hi0 : (i 0).val < 800000 := (i 0).isLt
  have hi1 : (i 1).val < 64 := (i 1).isLt
  obtain ⟨t, ht⟩ := blocks_onto4 ⟨(i 0).val / 8000, by omega⟩
  have q0 : win4_2.index t (0 : Fin 2) = (i 0).val / 8000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 64 ≤ (i 1).val ∧ (i 1).val < win4_2.index t (1 : Fin 2) * 64 + 64; omega

/-- After the region its output array holds the scaled messages, whatever the region found in its buffers. -/
theorem scale_region4 (c : Dev nD) :
    (dat4 (F := Ideal) V c).arrAt 2 cfg4.N = Cert.Gcn.scale64 (V c main_v53) (V c main_v26) :=
  (dat4 (F := Ideal) V c).arrAt_eq_of_cover 2 _ (fun t _ => scale_flushed4 V c t) covered4

end Cert.KernelIdeal.Tiles

end
-- ==== Proof.CombineTiles5.lean ====
/-
  A combining region (the program's region 5): the scatter-added aggregate plus a node's own features times its
  self-loop coefficient, clamped below at zero, 2000 nodes per grid point.

  Each of the 25 grid points reads block `t` of the aggregate, of the layer's own rows and of the self-loop column, and
  writes block `t` of the result; the blocks tile the node axis, so after the region the result array is the one
  whole-array function `max(agg(r, j) + h(r, j) · s(r, 0), 0)` of the three arrays the region found.
-/
import proofs.«117141_j22101901705658_2_alg».proof.Proof.Gen.KernelIdeal.Frame
import proofs.«117141_j22101901705658_2_alg».proof.Proof.Layers
import proofs.«117141_j22101901705658_2_alg».proof.Proof.TileBasics

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 2000 nodes: the aggregate plus the node's own entry times its
    self-loop coefficient, clamped below at zero. -/
theorem combine_body5 (x0 x1 : Vec Ideal S2000x64 .f32) (x2 : Vec Ideal S2000x1 .f32) (y : S2000x64.Idx) :
    k5_pay1 (F := Ideal) x0 x1 x2 y = max (x0 y + x1 y * x2 (ix2 (Cert.Gcn.row y) (0 : Fin 1))) 0 := by
  obtain ⟨p, q, rfl⟩ : ∃ (p : Fin 2000) (q : Fin 64), y = ix2 p q := ⟨y 0, y 1, eq_ix2 y⟩
  unfold k5_pay1
  simp only [shapeCast_self]
  show max (x0 (ix2 p q) + x1 (ix2 p q) * broadcastTo S2000x64 x2 broadcasts_S2000x1_S2000x64 (ix2 p q)) (Ideal.ofBits .f32 0x00000000#32) = _
  rw [broadcastTo_a1_ab_apply, Ideal.ofBits_zero_f32]

/-- How the four windows' blocks move over the 25 grid points: all along the node axis with the point, none along the features. -/
theorem blocks5 : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = win5_3.index t (0 : Fin 2)
    ∧ win5_2.index t (1 : Fin 2) = 0
    ∧ win5_3.index t (1 : Fin 2) = 0
    ∧ win5_3.index t (0 : Fin 2) < 25 :=
  (by decide +kernel : ∀ t : Fin grid5.N, _)

/-- Every block of 2000 nodes is some grid point's. -/
theorem blocks_onto5 : ∀ q0 : Fin 25, ∃ t : Fin cfg5.N, win5_3.index t = ![q0.val, 0] :=
  (by decide +kernel : ∀ q0 : Fin 25, ∃ t : Fin grid5.N, win5_3.index t = ![q0.val, 0])

/-- What grid point `t` writes back is block `t` of the combined features. -/
theorem combine_flushed5 (c : Dev nD) (t : Fin cfg5.N) :
    (dat5 (F := Ideal) V c).flushed 3 t
      = ((cfg5.win 3).blk t).view.read (Elt Ideal) (Cert.Gcn.combineRelu64 (V c main_v57) (V c main_v46) (V c main_v28)) := by
  show (cfg5.win 3).cut (grid5.coords t) ((dat5 V c).after 3 t) = _
  rw [after5_3]
  unfold out5_3
  rw [View.canon_unit_zero zero_offsets]
  simp only [View.ld_unit_zero (S := S2000x64) zero_offsets, View.ld_unit_zero (S := S2000x1) zero_offsets]
  obtain ⟨e0, e1, e2, e3, e4, e5, e6, e7⟩ := blocks5 t
  funext j
  refine (combine_body5 _ _ _ j).trans ?_
  show FloatOps.maximumf (F := Ideal) (φ := .f32) (FloatOps.addf (V c main_v57 (((cfg5.win 0).blk t).view.emb j)) (FloatOps.mulf (V c main_v46 (((cfg5.win 1).blk t).view.emb j)) (V c main_v28 (((cfg5.win 2).blk t).view.emb (ix2 (Cert.Gcn.row j) (0 : Fin 1)))))) (0 : EReal)
    = Cert.Gcn.combineRelu64 (V c main_v57) (V c main_v46) (V c main_v28) (((cfg5.win 3).blk t).view.emb j)
  have h0 : ((cfg5.win 0).blk t).view.emb j = ((cfg5.win 3).blk t).view.emb j := by
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 2000 + 1 * (j 0).val = win5_3.index t (0 : Fin 2) * 2000 + 1 * (j 0).val; omega
    | ⟨1, _⟩ => show win5_1.index t (1 : Fin 2) * 64 + 1 * (j 1).val = win5_3.index t (1 : Fin 2) * 64 + 1 * (j 1).val; omega
  have h2 : ((cfg5.win 2).blk t).view.emb (ix2 (Cert.Gcn.row j) (0 : Fin 1)) = ix2 (Cert.Gcn.row (((cfg5.win 3).blk t).view.emb j)) (0 : Fin 1) := by
    funext a; apply Fin.ext
    match a with
    | ⟨0, _⟩ => show win5_2.index t (0 : Fin 2) * 2000 + 1 * (j 0).val = win5_3.index t (0 : Fin 2) * 2000 + 1 * (j 0).val; omega
    | ⟨1, _⟩ => show win5_2.index t (1 : Fin 2) * 1 + 1 * 0 = 0; omega
  rw [h0, h1, h2]
  rfl

/-- An index of the output array lies in point `t`'s block iff each coordinate lies in the block's range on its axis. -/
theorem mem_block5 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v58).slice (win5_3.rect t)).set ↔ _
  rw [View.set_slice_whole, Rect.mem_set_unit]
  exact Iff.rfl

/-- The 25 blocks of 2000 rows cover the output array: row `r` lies in block `r / 2000`. -/
theorem covered5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := blocks_onto5 ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_block5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- After the region its output array holds the combined features, whatever the region found in its buffers. -/
theorem combine_region5 (c : Dev nD) :
    (dat5 (F := Ideal) V c).arrAt 3 cfg5.N = Cert.Gcn.combineRelu64 (V c main_v57) (V c main_v46) (V c main_v28) :=
  (dat5 (F := Ideal) V c).arrAt_eq_of_cover 3 _ (fun t _ => combine_flushed5 V c t) covered5

end Cert.KernelIdeal.Tiles

end
-- ==== Proof.ChainLayer2.lean ====
/-
  Reading the kernel's chain of segments, layer 2: the second layer (boundaries 7–12).

  The program's run passes eighteen boundaries — after each of nine stretches of host operations and each of nine
  tiled regions. At every boundary, each buffer that a later step still reads is shown to hold the plain array
  program's corresponding intermediate array (a named stage of its run, as a function of the arguments):
  a buffer a host stretch writes is that stretch's operations applied to buffers already identified — the same
  operations the plain program applies, a reshape to a column or row being the plain program's broadcast —; a
  region's output array is the whole-array function of its inputs that the tiles compute, which is the plain
  program's stage; and a buffer nobody writes keeps what it held.
-/
import proofs.«117141_j22101901705658_2_alg».proof.Proof.ChainLayer1
import proofs.«117141_j22101901705658_2_alg».proof.Proof.DenseTiles3
import proofs.«117141_j22101901705658_2_alg».proof.Proof.ScaleTiles4
import proofs.«117141_j22101901705658_2_alg».proof.Proof.CombineTiles5

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Boundary 7: after the host stretch 3 -/
set_option maxHeartbeats 1000000 in
theorem W7_v44 : W7 m ρ c (Proc.devRef .tc main_v44) = Cert.ReferenceIdeal.Read.val_main_v50 (m ((c : Thread nD τ).loc main_arg4)) := by
  show StableHlo.after hostOps3 (W6 m ρ c) (Proc.devRef .tc main_v44) = _
  after_results_simp
  rw [W6_arg4 m ρ c]
  rfl
set_option maxHeartbeats 1000000 in
theorem W7_v45 : W7 m ρ c (Proc.devRef .tc main_v45) = Cert.ReferenceIdeal.Read.val_main_v52 (m ((c : Thread nD τ).loc main_arg5)) := by
  show StableHlo.after hostOps3 (W6 m ρ c) (Proc.devRef .tc main_v45) = _
  after_results_simp
  rw [W6_arg5 m ρ c]
  refine (Cert.KernelIdeal.Tiles.shapeCast_row_eq_broadcast _ _ ![1] Cert.ReferenceIdeal.Facts₀.bcast_S64_S1x64_1 rfl).trans ?_
  rfl
theorem W7_arg6 : W7 m ρ c (Proc.devRef .tc main_arg6) = (m ((c : Thread nD τ).loc main_arg6)) :=
  (by host_keeps hostOps3 : W7 m ρ c (Proc.devRef .tc main_arg6) = W6 m ρ c (Proc.devRef .tc main_arg6)).trans (W6_arg6 m ρ c)
theorem W7_arg7 : W7 m ρ c (Proc.devRef .tc main_arg7) = (m ((c : Thread nD τ).loc main_arg7)) :=
  (by host_keeps hostOps3 : W7 m ρ c (Proc.devRef .tc main_arg7) = W6 m ρ c (Proc.devRef .tc main_arg7)).trans (W6_arg7 m ρ c)
theorem W7_v1 : W7 m ρ c (Proc.devRef .tc main_v1) = Cert.ReferenceIdeal.Read.val_main_v1 (m ((c : Thread nD τ).loc main_arg1)) :=
  (by host_keeps hostOps3 : W7 m ρ c (Proc.devRef .tc main_v1) = W6 m ρ c (Proc.devRef .tc main_v1)).trans (W6_v1 m ρ c)
theorem W7_v3 : W7 m ρ c (Proc.devRef .tc main_v3) = Cert.ReferenceIdeal.Read.val_main_v3 (m ((c : Thread nD τ).loc main_arg1)) :=
  (by host_keeps hostOps3 : W7 m ρ c (Proc.devRef .tc main_v3) = W6 m ρ c (Proc.devRef .tc main_v3)).trans (W6_v3 m ρ c)
theorem W7_v26 : W7 m ρ c (Proc.devRef .tc main_v26) = Cert.ReferenceIdeal.Read.val_main_v38 (m ((c : Thread nD τ).loc main_arg1)) :=
  (by host_keeps hostOps3 : W7 m ρ c (Proc.devRef .tc main_v26) = W6 m ρ c (Proc.devRef .tc main_v26)).trans (W6_v26 m ρ c)
theorem W7_v28 : W7 m ρ c (Proc.devRef .tc main_v28) = Cert.ReferenceIdeal.Read.val_main_v45 (m ((c : Thread nD τ).loc main_arg1)) :=
  (by host_keeps hostOps3 : W7 m ρ c (Proc.devRef .tc main_v28) = W6 m ρ c (Proc.devRef .tc main_v28)).trans (W6_v28 m ρ c)
theorem W7_v43 : W7 m ρ c (Proc.devRef .tc main_v43) = Cert.ReferenceIdeal.Read.val_main_v49 (m ((c : Thread nD τ).loc main_arg0)) (m ((c : Thread nD τ).loc main_arg1)) (m ((c : Thread nD τ).loc main_arg2)) (m ((c : Thread nD τ).loc main_arg3)) :=
  (by host_keeps hostOps3 : W7 m ρ c (Proc.devRef .tc main_v43) = W6 m ρ c (Proc.devRef .tc main_v43)).trans (W6_v43 m ρ c)

/-! ## Boundary 8: after region 3 -/
theorem W8_v46 : W8 m ρ c (Proc.devRef .tc main_v46) = Cert.ReferenceIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Cert.KernelIdeal.Tiles.dense_region3 (V7 m ρ) c).trans ?_)
  show Cert.Gcn.dense64 (W7 m ρ c (Proc.devRef .tc main_v43)) (W7 m ρ c (Proc.devRef .tc main_v44)) (W7 m ρ c (Proc.devRef .tc main_v45)) = _
  rw [W7_v43 m ρ c, W7_v44 m ρ c, W7_v45 m ρ c]
  exact (Cert.ReferenceIdeal.Stages.dense_second (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm
theorem W8_arg6 : W8 m ρ c (Proc.devRef .tc main_arg6) = (m ((c : Thread nD τ).loc main_arg6)) :=
  (W8_of_ne m ρ c main_arg6 (by decide)).trans (W7_arg6 m ρ c)
theorem W8_arg7 : W8 m ρ c (Proc.devRef .tc main_arg7) = (m ((c : Thread nD τ).loc main_arg7)) :=
  (W8_of_ne m ρ c main_arg7 (by decide)).trans (W7_arg7 m ρ c)
theorem W8_v1 : W8 m ρ c (Proc.devRef .tc main_v1) = Cert.ReferenceIdeal.Read.val_main_v1 (m ((c : Thread nD τ).loc main_arg1)) :=
  (W8_of_ne m ρ c main_v1 (by decide)).trans (W7_v1 m ρ c)
theorem W8_v3 : W8 m ρ c (Proc.devRef .tc main_v3) = Cert.ReferenceIdeal.Read.val_main_v3 (m ((c : Thread nD τ).loc main_arg1)) :=
  (W8_of_ne m ρ c main_v3 (by decide)).trans (W7_v3 m ρ c)
theorem W8_v26 : W8 m ρ c (Proc.devRef .tc main_v26) = Cert.ReferenceIdeal.Read.val_main_v38 (m ((c : Thread nD τ).loc main_arg1)) :=
  (W8_of_ne m ρ c main_v26 (by decide)).trans (W7_v26 m ρ c)
theorem W8_v28 : W8 m ρ c (Proc.devRef .tc main_v28) = Cert.ReferenceIdeal.Read.val_main_v45 (m ((c : Thread nD τ).loc main_arg1)) :=
  (W8_of_ne m ρ c main_v28 (by decide)).trans (W7_v28 m ρ c)

/-! ## Boundary 9: after the host stretch 4 -/
set_option maxHeartbeats 1000000 in
theorem W9_v53 : W9 m ρ c (Proc.devRef .tc main_v53) = Cert.ReferenceIdeal.Read.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W8 m ρ c) (Proc.devRef .tc main_v53) = _
  after_results_simp
  rw [W8_v46 m ρ c, W8_v1 m ρ c]
  rfl
theorem W9_arg6 : W9 m ρ c (Proc.devRef .tc main_arg6) = (m ((c : Thread nD τ).loc main_arg6)) :=
  (by host_keeps hostOps4 : W9 m ρ c (Proc.devRef .tc main_arg6) = W8 m ρ c (Proc.devRef .tc main_arg6)).trans (W8_arg6 m ρ c)
theorem W9_arg7 : W9 m ρ c (Proc.devRef .tc main_arg7) = (m ((c : Thread nD τ).loc main_arg7)) :=
  (by host_keeps hostOps4 : W9 m ρ c (Proc.devRef .tc main_arg7) = W8 m ρ c (Proc.devRef .tc main_arg7)).trans (W8_arg7 m ρ c)
theorem W9_v1 : W9 m ρ c (Proc.devRef .tc main_v1) = Cert.ReferenceIdeal.Read.val_main_v1 (m ((c : Thread nD τ).loc main_arg1)) :=
  (by host_keeps hostOps4 : W9 m ρ c (Proc.devRef .tc main_v1) = W8 m ρ c (Proc.devRef .tc main_v1)).trans (W8_v1 m ρ c)
theorem W9_v3 : W9 m ρ c (Proc.devRef .tc main_v3) = Cert.ReferenceIdeal.Read.val_main_v3 (m ((c : Thread nD τ).loc main_arg1)) :=
  (by host_keeps hostOps4 : W9 m ρ c (Proc.devRef .tc main_v3) = W8 m ρ c (Proc.devRef .tc main_v3)).trans (W8_v3 m ρ c)
theorem W9_v26 : W9 m ρ c (Proc.devRef .tc main_v26) = Cert.ReferenceIdeal.Read.val_main_v38 (m ((c : Thread nD τ).loc main_arg1)) :=
  (by host_keeps hostOps4 : W9 m ρ c (Proc.devRef .tc main_v26) = W8 m ρ c (Proc.devRef .tc main_v26)).trans (W8_v26 m ρ c)
theorem W9_v28 : W9 m ρ c (Proc.devRef .tc main_v28) = Cert.ReferenceIdeal.Read.val_main_v45 (m ((c : Thread nD τ).loc main_arg1)) :=
  (by host_keeps hostOps4 : W9 m ρ c (Proc.devRef .tc main_v28) = W8 m ρ c (Proc.devRef .tc main_v28)).trans (W8_v28 m ρ c)
theorem W9_v46 : W9 m ρ c (Proc.devRef .tc main_v46) = Cert.ReferenceIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (by host_keeps hostOps4 : W9 m ρ c (Proc.devRef .tc main_v46) = W8 m ρ c (Proc.devRef .tc main_v46)).trans (W8_v46 m ρ c)

/-! ## Boundary 10: after region 4 -/
theorem W10_v54 : W10 m ρ c (Proc.devRef .tc main_v54) = Cert.ReferenceIdeal.Read.val_main_v86 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ((Cert.KernelIdeal.Tiles.scale_region4 (V9 m ρ) c).trans ?_)
  show Cert.Gcn.scale64 (W9 m ρ c (Proc.devRef .tc main_v53)) (W9 m ρ c (Proc.devRef .tc main_v26)) = _
  rw [W9_v53 m ρ c, W9_v26 m ρ c]
  exact (Cert.ReferenceIdeal.Stages.scaled_second (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm
theorem W10_arg6 : W10 m ρ c (Proc.devRef .tc main_arg6) = (m ((c : Thread nD τ).loc main_arg6)) :=
  (W10_of_ne m ρ c main_arg6 (by decide)).trans (W9_arg6 m ρ c)
theorem W10_arg7 : W10 m ρ c (Proc.devRef .tc main_arg7) = (m ((c : Thread nD τ).loc main_arg7)) :=
  (W10_of_ne m ρ c main_arg7 (by decide)).trans (W9_arg7 m ρ c)
theorem W10_v1 : W10 m ρ c (Proc.devRef .tc main_v1) = Cert.ReferenceIdeal.Read.val_main_v1 (m ((c : Thread nD τ).loc main_arg1)) :=
  (W10_of_ne m ρ c main_v1 (by decide)).trans (W9_v1 m ρ c)
theorem W10_v3 : W10 m ρ c (Proc.devRef .tc main_v3) = Cert.ReferenceIdeal.Read.val_main_v3 (m ((c : Thread nD τ).loc main_arg1)) :=
  (W10_of_ne m ρ c main_v3 (by decide)).trans (W9_v3 m ρ c)
theorem W10_v26 : W10 m ρ c (Proc.devRef .tc main_v26) = Cert.ReferenceIdeal.Read.val_main_v38 (m ((c : Thread nD τ).loc main_arg1)) :=
  ((W10_arr m ρ c 1).trans (((dat4 (V9 m ρ) c).arrAt_in 1 rfl _).trans (A_eq4 (V9 m ρ) c 1))).trans (W9_v26 m ρ c)
theorem W10_v28 : W10 m ρ c (Proc.devRef .tc main_v28) = Cert.ReferenceIdeal.Read.val_main_v45 (m ((c : Thread nD τ).loc main_arg1)) :=
  (W10_of_ne m ρ c main_v28 (by decide)).trans (W9_v28 m ρ c)
theorem W10_v46 : W10 m ρ c (Proc.devRef .tc main_v46) = Cert.ReferenceIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_of_ne m ρ c main_v46 (by decide)).trans (W9_v46 m ρ c)

/-! ## Boundary 11: after the host stretch 5 -/
set_option maxHeartbeats 1000000 in
theorem W11_v57 : W11 m ρ c (Proc.devRef .tc main_v57) = Cert.ReferenceIdeal.Read.val_main_v89 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps5 (W10 m ρ c) (Proc.devRef .tc main_v57) = _
  after_results_simp
  rw [W10_v3 m ρ c, W10_v54 m ρ c]
  rfl
theorem W11_arg6 : W11 m ρ c (Proc.devRef .tc main_arg6) = (m ((c : Thread nD τ).loc main_arg6)) :=
  (by host_keeps hostOps5 : W11 m ρ c (Proc.devRef .tc main_arg6) = W10 m ρ c (Proc.devRef .tc main_arg6)).trans (W10_arg6 m ρ c)
theorem W11_arg7 : W11 m ρ c (Proc.devRef .tc main_arg7) = (m ((c : Thread nD τ).loc main_arg7)) :=
  (by host_keeps hostOps5 : W11 m ρ c (Proc.devRef .tc main_arg7) = W10 m ρ c (Proc.devRef .tc main_arg7)).trans (W10_arg7 m ρ c)
theorem W11_v1 : W11 m ρ c (Proc.devRef .tc main_v1) = Cert.ReferenceIdeal.Read.val_main_v1 (m ((c : Thread nD τ).loc main_arg1)) :=
  (by host_keeps hostOps5 : W11 m ρ c (Proc.devRef .tc main_v1) = W10 m ρ c (Proc.devRef .tc main_v1)).trans (W10_v1 m ρ c)
theorem W11_v3 : W11 m ρ c (Proc.devRef .tc main_v3) = Cert.ReferenceIdeal.Read.val_main_v3 (m ((c : Thread nD τ).loc main_arg1)) :=
  (by host_keeps hostOps5 : W11 m ρ c (Proc.devRef .tc main_v3) = W10 m ρ c (Proc.devRef .tc main_v3)).trans (W10_v3 m ρ c)
theorem W11_v26 : W11 m ρ c (Proc.devRef .tc main_v26) = Cert.ReferenceIdeal.Read.val_main_v38 (m ((c : Thread nD τ).loc main_arg1)) :=
  (by host_keeps hostOps5 : W11 m ρ c (Proc.devRef .tc main_v26) = W10 m ρ c (Proc.devRef .tc main_v26)).trans (W10_v26 m ρ c)
theorem W11_v28 : W11 m ρ c (Proc.devRef .tc main_v28) = Cert.ReferenceIdeal.Read.val_main_v45 (m ((c : Thread nD τ).loc main_arg1)) :=
  (by host_keeps hostOps5 : W11 m ρ c (Proc.devRef .tc main_v28) = W10 m ρ c (Proc.devRef .tc main_v28)).trans (W10_v28 m ρ c)
theorem W11_v46 : W11 m ρ c (Proc.devRef .tc main_v46) = Cert.ReferenceIdeal.Read.val_main_v54 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (by host_keeps hostOps5 : W11 m ρ c (Proc.devRef .tc main_v46) = W10 m ρ c (Proc.devRef .tc main_v46)).trans (W10_v46 m ρ c)

/-! ## Boundary 12: after region 5 -/
theorem W12_v58 : W12 m ρ c (Proc.devRef .tc main_v58) = Cert.ReferenceIdeal.Read.val_main_v95 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W12_arr m ρ c 3).trans ((Cert.KernelIdeal.Tiles.combine_region5 (V11 m ρ) c).trans ?_)
  show Cert.Gcn.combineRelu64 (W11 m ρ c (Proc.devRef .tc main_v57)) (W11 m ρ c (Proc.devRef .tc main_v46)) (W11 m ρ c (Proc.devRef .tc main_v28)) = _
  rw [W11_v57 m ρ c, W11_v46 m ρ c, W11_v28 m ρ c]
  exact (Cert.ReferenceIdeal.Stages.out_second (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm
theorem W12_arg6 : W12 m ρ c (Proc.devRef .tc main_arg6) = (m ((c : Thread nD τ).loc main_arg6)) :=
  (W12_of_ne m ρ c main_arg6 (by decide)).trans (W11_arg6 m ρ c)
theorem W12_arg7 : W12 m ρ c (Proc.devRef .tc main_arg7) = (m ((c : Thread nD τ).loc main_arg7)) :=
  (W12_of_ne m ρ c main_arg7 (by decide)).trans (W11_arg7 m ρ c)
theorem W12_v1 : W12 m ρ c (Proc.devRef .tc main_v1) = Cert.ReferenceIdeal.Read.val_main_v1 (m ((c : Thread nD τ).loc main_arg1)) :=
  (W12_of_ne m ρ c main_v1 (by decide)).trans (W11_v1 m ρ c)
theorem W12_v3 : W12 m ρ c (Proc.devRef .tc main_v3) = Cert.ReferenceIdeal.Read.val_main_v3 (m ((c : Thread nD τ).loc main_arg1)) :=
  (W12_of_ne m ρ c main_v3 (by decide)).trans (W11_v3 m ρ c)
theorem W12_v26 : W12 m ρ c (Proc.devRef .tc main_v26) = Cert.ReferenceIdeal.Read.val_main_v38 (m ((c : Thread nD τ).loc main_arg1)) :=
  (W12_of_ne m ρ c main_v26 (by decide)).trans (W11_v26 m ρ c)
theorem W12_v28 : W12 m ρ c (Proc.devRef .tc main_v28) = Cert.ReferenceIdeal.Read.val_main_v45 (m ((c : Thread nD τ).loc main_arg1)) :=
  ((W12_arr m ρ c 2).trans (((dat5 (V11 m ρ) c).arrAt_in 2 rfl _).trans (A_eq5 (V11 m ρ) c 2))).trans (W11_v28 m ρ c)

end Cert.KernelIdeal.Chain

end
-- ==== Proof.DenseTiles6.lean ====
/-
  A dense region (the program's region 6): the affine map `x · wt + b` into one feature, 2000 nodes per grid point.

  Each of the 25 grid points reads block `t` of the features, the whole weight matrix and the whole bias row, and
  writes block `t` of the result. Row `r` of the result depends on row `r` of the features only, so the blocks of
  the result are the blocks of ONE whole-array function, `Σ_k x(r, k) · wt(k, j) + b(0, j)`; they tile the node axis.
-/
import proofs.«117141_j22101901705658_2_alg».proof.Proof.Gen.KernelIdeal.Frame
import proofs.«117141_j22101901705658_2_alg».proof.Proof.Layers
import proofs.«117141_j22101901705658_2_alg».proof.Proof.TileBasics
import proofs.«117141_j22101901705658_2_alg».proof.Proof.LibMatmulNN

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 2000 nodes: the row of the block against the column of the
    weights, plus the bias at that column. The casts to the narrower float format are the identity on the extended
    reals, and the product into a zero accumulator is the plain sum over the 64 contracted positions. -/
theorem dense_body6 (x0 : Vec Ideal S2000x64 .f32) (x1 : Vec Ideal S64x1 .f32) (x2 : Vec Ideal S1x1 .f32) (y : S2000x1.Idx) :
    k6_pay1 (F := Ideal) x0 x1 x2 y
      = (∑ k : Fin 64, x0 (ix2 (Cert.Gcn.row y) k) * x1 (ix2 k (Cert.Gcn.col y))) + x2 (ix2 (0 : Fin 1) (Cert.Gcn.col y)) := by
  obtain ⟨p, q, rfl⟩ : ∃ (p : Fin 2000) (q : Fin 1), y = ix2 p q := ⟨y 0, y 1, eq_ix2 y⟩
  unfold k6_pay1
  simp only [shapeCast_self]
  show matmul (F := Ideal) dot_S2000x64_S64x1_S2000x1_1_0_0_1_n_n none (truncf (F := Ideal) .bf16 x0 bitsLt_bf16_f32) (truncf (F := Ideal) .bf16 x1 bitsLt_bf16_f32) (constant (F := Ideal) S2000x1 .f32 0x00000000#32) (ix2 p q)
      + broadcastTo S2000x1 x2 broadcasts_S1x1_S2000x1 (ix2 p q) = _
  rw [Cert.LibMatmulNN.matmul_nn_apply dot_S2000x64_S64x1_S2000x1_1_0_0_1_n_n rfl rfl rfl rfl rfl rfl none (truncf (F := Ideal) .bf16 x0 bitsLt_bf16_f32) (truncf (F := Ideal) .bf16 x1 bitsLt_bf16_f32) p q,
    broadcastTo_1b_ab_apply]
  rfl

/-- How the four windows' blocks move over the 25 grid points: the features and the result along the node axis with
    the point; the weights and the bias are one block, the same at every point. -/
theorem blocks6 : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (1 : Fin 2) = 0
    ∧ win6_3.index t (0 : Fin 2) < 25 :=
  (by decide +kernel : ∀ t : Fin grid6.N, _)

/-- Every block of 2000 nodes is some grid point's. -/
theorem blocks_onto6 : ∀ q0 : Fin 25, ∃ t : Fin cfg6.N, win6_3.index t = ![q0.val, 0] :=
  (by decide +kernel : ∀ q0 : Fin 25, ∃ t : Fin grid6.N, win6_3.index t = ![q0.val, 0])

/-- What grid point `t` writes back is block `t` of the affine map of the whole arrays. -/
theorem dense_flushed6 (c : Dev nD) (t : Fin cfg6.N) :
    (dat6 (F := Ideal) V c).flushed 3 t
      = ((cfg6.win 3).blk t).view.read (Elt Ideal) (Cert.Gcn.dense1 (V c main_v58) (V c main_v59) (V c main_v60)) := by
  show (cfg6.win 3).cut (grid6.coords t) ((dat6 V c).after 3 t) = _
  rw [after6_3]
  unfold out6_3
  rw [View.canon_unit_zero zero_offsets]
  simp only [View.ld_unit_zero (S := S2000x64) zero_offsets, View.ld_unit_zero (S := S64x1) zero_offsets, View.ld_unit_zero (S := S1x1) zero_offsets]
  obtain ⟨e0, e1, e2, e3, e4, e5, e6, e7⟩ := blocks6 t
  funext j
  refine (dense_body6 _ _ _ j).trans ?_
  show FloatOps.addf (F := Ideal) (φ := .f32)
      (∑ k : Fin 64, FloatOps.mulf (F := Ideal) (φ := .f32) (V c main_v58 (((cfg6.win 0).blk t).view.emb (ix2 (Cert.Gcn.row j) k)))
        (V c main_v59 (((cfg6.win 1).blk t).view.emb (ix2 k (Cert.Gcn.col j)))))
      (V c main_v60 (((cfg6.win 2).blk t).view.emb (ix2 (0 : Fin 1) (Cert.Gcn.col j))))
    = Cert.Gcn.dense1 (V c main_v58) (V c main_v59) (V c main_v60) (((cfg6.win 3).blk t).view.emb j)
  have hx : ∀ k : Fin 64, ((cfg6.win 0).blk t).view.emb (ix2 (Cert.Gcn.row j) k) = ix2 (Cert.Gcn.row (((cfg6.win 3).blk t).view.emb j)) k := fun k => by
    funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 64 + 1 * k.val = k.val; omega
  have hw : ∀ k : Fin 64, ((cfg6.win 1).blk t).view.emb (ix2 k (Cert.Gcn.col j)) = ix2 k (Cert.Gcn.col (((cfg6.win 3).blk t).view.emb j)) := fun k => by
    funext a; apply Fin.ext
    match a with
    | ⟨0, _⟩ => show win6_1.index t (0 : Fin 2) * 64 + 1 * k.val = k.val; omega
    | ⟨1, _⟩ => show win6_1.index t (1 : Fin 2) * 1 + 1 * (j 1).val = win6_3.index t (1 : Fin 2) * 1 + 1 * (j 1).val; omega
  have hb : ((cfg6.win 2).blk t).view.emb (ix2 (0 : Fin 1) (Cert.Gcn.col j)) = ix2 (0 : Fin 1) (Cert.Gcn.col (((cfg6.win 3).blk t).view.emb j)) := by
    funext a; apply Fin.ext
    match a with
    | ⟨0, _⟩ => show win6_2.index t (0 : Fin 2) * 1 + 1 * 0 = 0; omega
    | ⟨1, _⟩ => show win6_2.index t (1 : Fin 2) * 1 + 1 * (j 1).val = win6_3.index t (1 : Fin 2) * 1 + 1 * (j 1).val; omega
  simp only [hx, hw, hb]
  rfl

/-- An index of the output array lies in point `t`'s block iff each coordinate lies in the block's range on its axis. -/
theorem mem_block6 (t : Fin cfg6.N) (i : S50000x1.Idx) :
    i ∈ ((cfg6.win 3).blk t).view.set ↔ ∀ a : Fin 2, win6_3.index t a * S2000x1.size a ≤ (i a).val ∧ (i a).val < win6_3.index t a * S2000x1.size a + S2000x1.size a := by
  show i ∈ ((View.whole main_v61).slice (win6_3.rect t)).set ↔ _
  rw [View.set_slice_whole, Rect.mem_set_unit]
  exact Iff.rfl

/-- The 25 blocks of 2000 rows cover the output array: row `r` lies in block `r / 2000`. -/
theorem covered6 (i : S50000x1.Idx) : ∃ t : Fin cfg6.N, (cfg6.win 3).flush t = true ∧ i ∈ ((cfg6.win 3).blk t).view.set := by
  have hi0 : (i 0).val < 50000 := (i 0).isLt
  have hi1 : (i 1).val < 1 := (i 1).isLt
  obtain ⟨t, ht⟩ := blocks_onto6 ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_block6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 1 ≤ (i 1).val ∧ (i 1).val < win6_3.index t (1 : Fin 2) * 1 + 1; omega

/-- After the region its output array holds the affine map of the features, whatever the region found in its buffers. -/
theorem dense_region6 (c : Dev nD) :
    (dat6 (F := Ideal) V c).arrAt 3 cfg6.N = Cert.Gcn.dense1 (V c main_v58) (V c main_v59) (V c main_v60) :=
  (dat6 (F := Ideal) V c).arrAt_eq_of_cover 3 _ (fun t _ => dense_flushed6 V c t) covered6

end Cert.KernelIdeal.Tiles

end
-- ==== Proof.ScaleTiles7.lean ====
/-
  A message-scaling region (the program's region 7): a gathered row of features times its edge's coefficient,
  8000 edges per grid point.

  Each of the 100 grid points reads block `t` of the gathered rows and block `t` of the coefficient column and writes
  block `t` of the result; the blocks tile the edge axis, so after the region the result array is the one
  whole-array function `g(e, j) · c(e, 0)` of the two arrays the region found.
-/
import proofs.«117141_j22101901705658_2_alg».proof.Proof.Gen.KernelIdeal.Frame
import proofs.«117141_j22101901705658_2_alg».proof.Proof.Layers
import proofs.«117141_j22101901705658_2_alg».proof.Proof.TileBasics

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 8000 edges: the gathered entry times its edge's coefficient. -/
theorem scale_body7 (x0 : Vec Ideal S8000x1 .f32) (x1 : Vec Ideal S8000x1 .f32) (y : S8000x1.Idx) :
    k7_pay1 (F := Ideal) x0 x1 y = x0 y * x1 y := by
  obtain ⟨p, q, rfl⟩ : ∃ (p : Fin 8000) (q : Fin 1), y = ix2 p q := ⟨y 0, y 1, eq_ix2 y⟩
  unfold k7_pay1
  simp only [shapeCast_self]
  rfl

/-- How the three windows' blocks move over the 100 grid points: all along the edge axis with the point, none along the features. -/
theorem blocks7 : ∀ t : Fin cfg7.N, win7_0.index t (0 : Fin 2) = win7_2.index t (0 : Fin 2)
    ∧ win7_0.index t (1 : Fin 2) = 0
    ∧ win7_1.index t (0 : Fin 2) = win7_2.index t (0 : Fin 2)
    ∧ win7_1.index t (1 : Fin 2) = 0
    ∧ win7_2.index t (1 : Fin 2) = 0
    ∧ win7_2.index t (0 : Fin 2) < 100 :=
  (by decide +kernel : ∀ t : Fin grid7.N, _)

/-- Every block of 8000 edges is some grid point's. -/
theorem blocks_onto7 : ∀ q0 : Fin 100, ∃ t : Fin cfg7.N, win7_2.index t = ![q0.val, 0] :=
  (by decide +kernel : ∀ q0 : Fin 100, ∃ t : Fin grid7.N, win7_2.index t = ![q0.val, 0])

/-- What grid point `t` writes back is block `t` of the scaled messages. -/
theorem scale_flushed7 (c : Dev nD) (t : Fin cfg7.N) :
    (dat7 (F := Ideal) V c).flushed 2 t
      = ((cfg7.win 2).blk t).view.read (Elt Ideal) (Cert.Gcn.scale1 (V c main_v68) (V c main_v26)) := by
  show (cfg7.win 2).cut (grid7.coords t) ((dat7 V c).after 2 t) = _
  rw [after7_2]
  unfold out7_2
  rw [View.canon_unit_zero zero_offsets]
  simp only [View.ld_unit_zero (S := S8000x1) zero_offsets, View.ld_unit_zero (S := S8000x1) zero_offsets]
  obtain ⟨e0, e1, e2, e3, e4, e5⟩ := blocks7 t
  funext j
  refine (scale_body7 _ _ j).trans ?_
  show FloatOps.mulf (F := Ideal) (φ := .f32) (V c main_v68 (((cfg7.win 0).blk t).view.emb j)) (V c main_v26 (((cfg7.win 1).blk t).view.emb j))
    = Cert.Gcn.scale1 (V c main_v68) (V c main_v26) (((cfg7.win 2).blk t).view.emb j)
  have h0 : ((cfg7.win 0).blk t).view.emb j = ((cfg7.win 2).blk t).view.emb j := by
    funext a; apply Fin.ext
    match a with
    | ⟨0, _⟩ => show win7_0.index t (0 : Fin 2) * 8000 + 1 * (j 0).val = win7_2.index t (0 : Fin 2) * 8000 + 1 * (j 0).val; omega
    | ⟨1, _⟩ => show win7_0.index t (1 : Fin 2) * 1 + 1 * (j 1).val = win7_2.index t (1 : Fin 2) * 1 + 1 * (j 1).val; omega
  have h1 : ((cfg7.win 1).blk t).view.emb j = ((cfg7.win 2).blk t).view.emb j := by
    funext a; apply Fin.ext
    match a with
    | ⟨0, _⟩ => show win7_1.index t (0 : Fin 2) * 8000 + 1 * (j 0).val = win7_2.index t (0 : Fin 2) * 8000 + 1 * (j 0).val; omega
    | ⟨1, _⟩ => show win7_1.index t (1 : Fin 2) * 1 + 1 * (j 1).val = win7_2.index t (1 : Fin 2) * 1 + 1 * (j 1).val; omega
  rw [h0, h1]
  rfl

/-- An index of the output array lies in point `t`'s block iff each coordinate lies in the block's range on its axis. -/
theorem mem_block7 (t : Fin cfg7.N) (i : S800000x1.Idx) :
    i ∈ ((cfg7.win 2).blk t).view.set ↔ ∀ a : Fin 2, win7_2.index t a * S8000x1.size a ≤ (i a).val ∧ (i a).val < win7_2.index t a * S8000x1.size a + S8000x1.size a := by
  show i ∈ ((View.whole main_v69).slice (win7_2.rect t)).set ↔ _
  rw [View.set_slice_whole, Rect.mem_set_unit]
  exact Iff.rfl

/-- The 100 blocks of 8000 rows cover the output array: row `r` lies in block `r / 8000`. -/
theorem covered7 (i : S800000x1.Idx) : ∃ t : Fin cfg7.N, (cfg7.win 2).flush t = true ∧ i ∈ ((cfg7.win 2).blk t).view.set := by
  have hi0 : (i 0).val < 800000 := (i 0).isLt
  have hi1 : (i 1).val < 1 := (i 1).isLt
  obtain ⟨t, ht⟩ := blocks_onto7 ⟨(i 0).val / 8000, by omega⟩
  have q0 : win7_2.index t (0 : Fin 2) = (i 0).val / 8000 := congrFun ht 0
  have q1 : win7_2.index t (1 : Fin 2) = 0 := congrFun ht 1
  refine ⟨t, flush7_2 t, ?_⟩
  rw [mem_block7]
  intro a
  match a with
  | ⟨0, _⟩ => show win7_2.index t (0 : Fin 2) * 8000 ≤ (i 0).val ∧ (i 0).val < win7_2.index t (0 : Fin 2) * 8000 + 8000; omega
  | ⟨1, _⟩ => show win7_2.index t (1 : Fin 2) * 1 ≤ (i 1).val ∧ (i 1).val < win7_2.index t (1 : Fin 2) * 1 + 1; omega

/-- After the region its output array holds the scaled messages, whatever the region found in its buffers. -/
theorem scale_region7 (c : Dev nD) :
    (dat7 (F := Ideal) V c).arrAt 2 cfg7.N = Cert.Gcn.scale1 (V c main_v68) (V c main_v26) :=
  (dat7 (F := Ideal) V c).arrAt_eq_of_cover 2 _ (fun t _ => scale_flushed7 V c t) covered7

end Cert.KernelIdeal.Tiles

end
-- ==== Proof.CombineTiles8.lean ====
/-
  A combining region (the program's region 8): the scatter-added aggregate plus a node's own features times its
  self-loop coefficient, 2000 nodes per grid point.

  Each of the 25 grid points reads block `t` of the aggregate, of the layer's own rows and of the self-loop column, and
  writes block `t` of the result; the blocks tile the node axis, so after the region the result array is the one
  whole-array function `agg(r, 0) + h(r, 0) · s(r, 0)` of the three arrays the region found.
-/
import proofs.«117141_j22101901705658_2_alg».proof.Proof.Gen.KernelIdeal.Frame
import proofs.«117141_j22101901705658_2_alg».proof.Proof.Layers
import proofs.«117141_j22101901705658_2_alg».proof.Proof.TileBasics

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of a block of 2000 nodes: the aggregate plus the node's own entry times its
    self-loop coefficient. -/
theorem combine_body8 (x0 x1 : Vec Ideal S2000x1 .f32) (x2 : Vec Ideal S2000x1 .f32) (y : S2000x1.Idx) :
    k8_pay1 (F := Ideal) x0 x1 x2 y = x0 y + x1 y * x2 y := by
  obtain ⟨p, q, rfl⟩ : ∃ (p : Fin 2000) (q : Fin 1), y = ix2 p q := ⟨y 0, y 1, eq_ix2 y⟩
  unfold k8_pay1
  simp only [shapeCast_self]
  rfl

/-- How the four windows' blocks move over the 25 grid points: all along the node axis with the point, none along the features. -/
theorem blocks8 : ∀ t : Fin cfg8.N, win8_0.index t (0 : Fin 2) = win8_3.index t (0 : Fin 2)
    ∧ win8_0.index t (1 : Fin 2) = 0
    ∧ win8_1.index t (0 : Fin 2) = win8_3.index t (0 : Fin 2)
    ∧ win8_1.index t (1 : Fin 2) = 0
    ∧ win8_2.index t (0 : Fin 2) = win8_3.index t (0 : Fin 2)
    ∧ win8_2.index t (1 : Fin 2) = 0
    ∧ win8_3.index t (1 : Fin 2) = 0
    ∧ win8_3.index t (0 : Fin 2) < 25 :=
  (by decide +kernel : ∀ t : Fin grid8.N, _)

/-- Every block of 2000 nodes is some grid point's. -/
theorem blocks_onto8 : ∀ q0 : Fin 25, ∃ t : Fin cfg8.N, win8_3.index t = ![q0.val, 0] :=
  (by decide +kernel : ∀ q0 : Fin 25, ∃ t : Fin grid8.N, win8_3.index t = ![q0.val, 0])

/-- What grid point `t` writes back is block `t` of the combined features. -/
theorem combine_flushed8 (c : Dev nD) (t : Fin cfg8.N) :
    (dat8 (F := Ideal) V c).flushed 3 t
      = ((cfg8.win 3).blk t).view.read (Elt Ideal) (Cert.Gcn.combine1 (V c main_v72) (V c main_v61) (V c main_v28)) := by
  show (cfg8.win 3).cut (grid8.coords t) ((dat8 V c).after 3 t) = _
  rw [after8_3]
  unfold out8_3
  rw [View.canon_unit_zero zero_offsets]
  simp only [View.ld_unit_zero (S := S2000x1) zero_offsets, View.ld_unit_zero (S := S2000x1) zero_offsets]
  obtain ⟨e0, e1, e2, e3, e4, e5, e6, e7⟩ := blocks8 t
  funext j
  refine (combine_body8 _ _ _ j).trans ?_
  show FloatOps.addf (F := Ideal) (φ := .f32) (V c main_v72 (((cfg8.win 0).blk t).view.emb j)) (FloatOps.mulf (V c main_v61 (((cfg8.win 1).blk t).view.emb j)) (V c main_v28 (((cfg8.win 2).blk t).view.emb j)))
    = Cert.Gcn.combine1 (V c main_v72) (V c main_v61) (V c main_v28) (((cfg8.win 3).blk t).view.emb j)
  have h0 : ((cfg8.win 0).blk t).view.emb j = ((cfg8.win 3).blk t).view.emb j := by
    funext a; apply Fin.ext
    match a with
    | ⟨0, _⟩ => show win8_0.index t (0 : Fin 2) * 2000 + 1 * (j 0).val = win8_3.index t (0 : Fin 2) * 2000 + 1 * (j 0).val; omega
    | ⟨1, _⟩ => show win8_0.index t (1 : Fin 2) * 1 + 1 * (j 1).val = win8_3.index t (1 : Fin 2) * 1 + 1 * (j 1).val; omega
  have h1 : ((cfg8.win 1).blk t).view.emb j = ((cfg8.win 3).blk t).view.emb j := by
    funext a; apply Fin.ext
    match a with
    | ⟨0, _⟩ => show win8_1.index t (0 : Fin 2) * 2000 + 1 * (j 0).val = win8_3.index t (0 : Fin 2) * 2000 + 1 * (j 0).val; omega
    | ⟨1, _⟩ => show win8_1.index t (1 : Fin 2) * 1 + 1 * (j 1).val = win8_3.index t (1 : Fin 2) * 1 + 1 * (j 1).val; omega
  have h2 : ((cfg8.win 2).blk t).view.emb j = ((cfg8.win 3).blk t).view.emb j := by
    funext a; apply Fin.ext
    match a with
    | ⟨0, _⟩ => show win8_2.index t (0 : Fin 2) * 2000 + 1 * (j 0).val = win8_3.index t (0 : Fin 2) * 2000 + 1 * (j 0).val; omega
    | ⟨1, _⟩ => show win8_2.index t (1 : Fin 2) * 1 + 1 * (j 1).val = win8_3.index t (1 : Fin 2) * 1 + 1 * (j 1).val; omega
  rw [h0, h1, h2]
  rfl

/-- An index of the output array lies in point `t`'s block iff each coordinate lies in the block's range on its axis. -/
theorem mem_block8 (t : Fin cfg8.N) (i : S50000x1.Idx) :
    i ∈ ((cfg8.win 3).blk t).view.set ↔ ∀ a : Fin 2, win8_3.index t a * S2000x1.size a ≤ (i a).val ∧ (i a).val < win8_3.index t a * S2000x1.size a + S2000x1.size a := by
  show i ∈ ((View.whole main_v73).slice (win8_3.rect t)).set ↔ _
  rw [View.set_slice_whole, Rect.mem_set_unit]
  exact Iff.rfl

/-- The 25 blocks of 2000 rows cover the output array: row `r` lies in block `r / 2000`. -/
theorem covered8 (i : S50000x1.Idx) : ∃ t : Fin cfg8.N, (cfg8.win 3).flush t = true ∧ i ∈ ((cfg8.win 3).blk t).view.set := by
  have hi0 : (i 0).val < 50000 := (i 0).isLt
  have hi1 : (i 1).val < 1 := (i 1).isLt
  obtain ⟨t, ht⟩ := blocks_onto8 ⟨(i 0).val / 2000, by omega⟩
  have q0 : win8_3.index t (0 : Fin 2) = (i 0).val / 2000 := congrFun ht 0
  have q1 : win8_3.index t (1 : Fin 2) = 0 := congrFun ht 1
  refine ⟨t, flush8_3 t, ?_⟩
  rw [mem_block8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 1 ≤ (i 1).val ∧ (i 1).val < win8_3.index t (1 : Fin 2) * 1 + 1; omega

/-- After the region its output array holds the combined features, whatever the region found in its buffers. -/
theorem combine_region8 (c : Dev nD) :
    (dat8 (F := Ideal) V c).arrAt 3 cfg8.N = Cert.Gcn.combine1 (V c main_v72) (V c main_v61) (V c main_v28) :=
  (dat8 (F := Ideal) V c).arrAt_eq_of_cover 3 _ (fun t _ => combine_flushed8 V c t) covered8

end Cert.KernelIdeal.Tiles

end
-- ==== Proof.ChainLayer3.lean ====
/-
  Reading the kernel's chain of segments, layer 3: the third layer, with one output feature (boundaries 13–18).

  The program's run passes eighteen boundaries — after each of nine stretches of host operations and each of nine
  tiled regions. At every boundary, each buffer that a later step still reads is shown to hold the plain array
  program's corresponding intermediate array (a named stage of its run, as a function of the arguments):
  a buffer a host stretch writes is that stretch's operations applied to buffers already identified — the same
  operations the plain program applies, a reshape to a column or row being the plain program's broadcast —; a
  region's output array is the whole-array function of its inputs that the tiles compute, which is the plain
  program's stage; and a buffer nobody writes keeps what it held.
-/
import proofs.«117141_j22101901705658_2_alg».proof.Proof.ChainLayer2
import proofs.«117141_j22101901705658_2_alg».proof.Proof.DenseTiles6
import proofs.«117141_j22101901705658_2_alg».proof.Proof.ScaleTiles7
import proofs.«117141_j22101901705658_2_alg».proof.Proof.CombineTiles8

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Boundary 13: after the host stretch 6 -/
set_option maxHeartbeats 1000000 in
theorem W13_v59 : W13 m ρ c (Proc.devRef .tc main_v59) = Cert.ReferenceIdeal.Read.val_main_v96 (m ((c : Thread nD τ).loc main_arg6)) := by
  show StableHlo.after hostOps6 (W12 m ρ c) (Proc.devRef .tc main_v59) = _
  after_results_simp
  rw [W12_arg6 m ρ c]
  rfl
set_option maxHeartbeats 1000000 in
theorem W13_v60 : W13 m ρ c (Proc.devRef .tc main_v60) = Cert.ReferenceIdeal.Read.val_main_v98 (m ((c : Thread nD τ).loc main_arg7)) := by
  show StableHlo.after hostOps6 (W12 m ρ c) (Proc.devRef .tc main_v60) = _
  after_results_simp
  rw [W12_arg7 m ρ c]
  refine (Cert.KernelIdeal.Tiles.shapeCast_row_eq_broadcast _ _ ![1] Cert.ReferenceIdeal.Facts₀.bcast_S1_S1x1_1 rfl).trans ?_
  rfl
theorem W13_v1 : W13 m ρ c (Proc.devRef .tc main_v1) = Cert.ReferenceIdeal.Read.val_main_v1 (m ((c : Thread nD τ).loc main_arg1)) :=
  (by host_keeps hostOps6 : W13 m ρ c (Proc.devRef .tc main_v1) = W12 m ρ c (Proc.devRef .tc main_v1)).trans (W12_v1 m ρ c)
theorem W13_v3 : W13 m ρ c (Proc.devRef .tc main_v3) = Cert.ReferenceIdeal.Read.val_main_v3 (m ((c : Thread nD τ).loc main_arg1)) :=
  (by host_keeps hostOps6 : W13 m ρ c (Proc.devRef .tc main_v3) = W12 m ρ c (Proc.devRef .tc main_v3)).trans (W12_v3 m ρ c)
theorem W13_v26 : W13 m ρ c (Proc.devRef .tc main_v26) = Cert.ReferenceIdeal.Read.val_main_v38 (m ((c : Thread nD τ).loc main_arg1)) :=
  (by host_keeps hostOps6 : W13 m ρ c (Proc.devRef .tc main_v26) = W12 m ρ c (Proc.devRef .tc main_v26)).trans (W12_v26 m ρ c)
theorem W13_v28 : W13 m ρ c (Proc.devRef .tc main_v28) = Cert.ReferenceIdeal.Read.val_main_v45 (m ((c : Thread nD τ).loc main_arg1)) :=
  (by host_keeps hostOps6 : W13 m ρ c (Proc.devRef .tc main_v28) = W12 m ρ c (Proc.devRef .tc main_v28)).trans (W12_v28 m ρ c)
theorem W13_v58 : W13 m ρ c (Proc.devRef .tc main_v58) = Cert.ReferenceIdeal.Read.val_main_v95 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (by host_keeps hostOps6 : W13 m ρ c (Proc.devRef .tc main_v58) = W12 m ρ c (Proc.devRef .tc main_v58)).trans (W12_v58 m ρ c)

/-! ## Boundary 14: after region 6 -/
theorem W14_v61 : W14 m ρ c (Proc.devRef .tc main_v61) = Cert.ReferenceIdeal.Read.val_main_v100 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W14_arr m ρ c 3).trans ((Cert.KernelIdeal.Tiles.dense_region6 (V13 m ρ) c).trans ?_)
  show Cert.Gcn.dense1 (W13 m ρ c (Proc.devRef .tc main_v58)) (W13 m ρ c (Proc.devRef .tc main_v59)) (W13 m ρ c (Proc.devRef .tc main_v60)) = _
  rw [W13_v58 m ρ c, W13_v59 m ρ c, W13_v60 m ρ c]
  exact (Cert.ReferenceIdeal.Stages.dense_third (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem W14_v1 : W14 m ρ c (Proc.devRef .tc main_v1) = Cert.ReferenceIdeal.Read.val_main_v1 (m ((c : Thread nD τ).loc main_arg1)) :=
  (W14_of_ne m ρ c main_v1 (by decide)).trans (W13_v1 m ρ c)
theorem W14_v3 : W14 m ρ c (Proc.devRef .tc main_v3) = Cert.ReferenceIdeal.Read.val_main_v3 (m ((c : Thread nD τ).loc main_arg1)) :=
  (W14_of_ne m ρ c main_v3 (by decide)).trans (W13_v3 m ρ c)
theorem W14_v26 : W14 m ρ c (Proc.devRef .tc main_v26) = Cert.ReferenceIdeal.Read.val_main_v38 (m ((c : Thread nD τ).loc main_arg1)) :=
  (W14_of_ne m ρ c main_v26 (by decide)).trans (W13_v26 m ρ c)
theorem W14_v28 : W14 m ρ c (Proc.devRef .tc main_v28) = Cert.ReferenceIdeal.Read.val_main_v45 (m ((c : Thread nD τ).loc main_arg1)) :=
  (W14_of_ne m ρ c main_v28 (by decide)).trans (W13_v28 m ρ c)

/-! ## Boundary 15: after the host stretch 7 -/
set_option maxHeartbeats 1000000 in
theorem W15_v68 : W15 m ρ c (Proc.devRef .tc main_v68) = Cert.ReferenceIdeal.Read.val_main_v129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps7 (W14 m ρ c) (Proc.devRef .tc main_v68) = _
  after_results_simp
  rw [W14_v61 m ρ c, W14_v1 m ρ c]
  rfl
theorem W15_v3 : W15 m ρ c (Proc.devRef .tc main_v3) = Cert.ReferenceIdeal.Read.val_main_v3 (m ((c : Thread nD τ).loc main_arg1)) :=
  (by host_keeps hostOps7 : W15 m ρ c (Proc.devRef .tc main_v3) = W14 m ρ c (Proc.devRef .tc main_v3)).trans (W14_v3 m ρ c)
theorem W15_v26 : W15 m ρ c (Proc.devRef .tc main_v26) = Cert.ReferenceIdeal.Read.val_main_v38 (m ((c : Thread nD τ).loc main_arg1)) :=
  (by host_keeps hostOps7 : W15 m ρ c (Proc.devRef .tc main_v26) = W14 m ρ c (Proc.devRef .tc main_v26)).trans (W14_v26 m ρ c)
theorem W15_v28 : W15 m ρ c (Proc.devRef .tc main_v28) = Cert.ReferenceIdeal.Read.val_main_v45 (m ((c : Thread nD τ).loc main_arg1)) :=
  (by host_keeps hostOps7 : W15 m ρ c (Proc.devRef .tc main_v28) = W14 m ρ c (Proc.devRef .tc main_v28)).trans (W14_v28 m ρ c)
theorem W15_v61 : W15 m ρ c (Proc.devRef .tc main_v61) = Cert.ReferenceIdeal.Read.val_main_v100 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (by host_keeps hostOps7 : W15 m ρ c (Proc.devRef .tc main_v61) = W14 m ρ c (Proc.devRef .tc main_v61)).trans (W14_v61 m ρ c)

/-! ## Boundary 16: after region 7 -/
theorem W16_v69 : W16 m ρ c (Proc.devRef .tc main_v69) = Cert.ReferenceIdeal.Read.val_main_v131 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W16_arr m ρ c 2).trans ((Cert.KernelIdeal.Tiles.scale_region7 (V15 m ρ) c).trans ?_)
  show Cert.Gcn.scale1 (W15 m ρ c (Proc.devRef .tc main_v68)) (W15 m ρ c (Proc.devRef .tc main_v26)) = _
  rw [W15_v68 m ρ c, W15_v26 m ρ c]
  exact (Cert.ReferenceIdeal.Stages.scaled_third (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem W16_v3 : W16 m ρ c (Proc.devRef .tc main_v3) = Cert.ReferenceIdeal.Read.val_main_v3 (m ((c : Thread nD τ).loc main_arg1)) :=
  (W16_of_ne m ρ c main_v3 (by decide)).trans (W15_v3 m ρ c)
theorem W16_v28 : W16 m ρ c (Proc.devRef .tc main_v28) = Cert.ReferenceIdeal.Read.val_main_v45 (m ((c : Thread nD τ).loc main_arg1)) :=
  (W16_of_ne m ρ c main_v28 (by decide)).trans (W15_v28 m ρ c)
theorem W16_v61 : W16 m ρ c (Proc.devRef .tc main_v61) = Cert.ReferenceIdeal.Read.val_main_v100 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W16_of_ne m ρ c main_v61 (by decide)).trans (W15_v61 m ρ c)

/-! ## Boundary 17: after the host stretch 8 -/
set_option maxHeartbeats 1000000 in
theorem W17_v72 : W17 m ρ c (Proc.devRef .tc main_v72) = Cert.ReferenceIdeal.Read.val_main_v134 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps8 (W16 m ρ c) (Proc.devRef .tc main_v72) = _
  after_results_simp
  rw [W16_v3 m ρ c, W16_v69 m ρ c]
  rfl
theorem W17_v28 : W17 m ρ c (Proc.devRef .tc main_v28) = Cert.ReferenceIdeal.Read.val_main_v45 (m ((c : Thread nD τ).loc main_arg1)) :=
  (by host_keeps hostOps8 : W17 m ρ c (Proc.devRef .tc main_v28) = W16 m ρ c (Proc.devRef .tc main_v28)).trans (W16_v28 m ρ c)
theorem W17_v61 : W17 m ρ c (Proc.devRef .tc main_v61) = Cert.ReferenceIdeal.Read.val_main_v100 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (by host_keeps hostOps8 : W17 m ρ c (Proc.devRef .tc main_v61) = W16 m ρ c (Proc.devRef .tc main_v61)).trans (W16_v61 m ρ c)

/-! ## Boundary 18: after region 8 -/
theorem W18_v73 : W18 m ρ c (Proc.devRef .tc main_v73) = Cert.ReferenceIdeal.Read.val_main_v138 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W18_arr m ρ c 3).trans ((Cert.KernelIdeal.Tiles.combine_region8 (V17 m ρ) c).trans ?_)
  show Cert.Gcn.combine1 (W17 m ρ c (Proc.devRef .tc main_v72)) (W17 m ρ c (Proc.devRef .tc main_v61)) (W17 m ρ c (Proc.devRef .tc main_v28)) = _
  rw [W17_v72 m ρ c, W17_v61 m ρ c, W17_v28 m ρ c]
  exact (Cert.ReferenceIdeal.Stages.out_third (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

end Cert.KernelIdeal.Chain

end
-- ==== Proof.lean ====
/-
  A three-layer graph convolution network on 50000 nodes and 800000 edges: a kernel in nine tiled regions against
  the plain array program, equal entry by entry on the extended reals.

  Both programs compute, from the edge list, the degree normalisation `1/√(deg + 1)` (a scatter-add of ones, plus
  one, reciprocal square root), the per-edge coefficient (its gathers at the two endpoints, multiplied) and the
  per-node self-loop coefficient (its square); and then, three times,
      h = x·Wᵀ + b,    out(r, ·) = Σ_{e : dst e = r} h(src e, ·) · coef(e) + h(r, ·) · selfc(r),
  with `max(·, 0)` after the first two layers. The gathers, the scatter-adds and the normalisation are the same host
  operations in both; the kernel computes the three dense pieces of each layer — the affine map, the scaling of
  the gathered rows, the combination with the self-loop term — in tiles of 2000 nodes or 8000 edges, and each
  tiled region leaves in its output array ONE whole-array function of the arrays it read (the blocks tile the
  array). Reading the kernel's chain of host stretches and regions from the launch to the return, every buffer a
  later step reads holds the plain program's corresponding intermediate array; at the end the result arrays agree.
  No law beyond the entry-by-entry definitions is used: the matrix product is the plain sum over the contracted axis
  on both sides, the casts to a narrower float format are the identity, and the float pattern of zero is zero;
  nothing needs the inputs finite.
-/
import proofs.«117141_j22101901705658_2_alg».proof.Defs
import proofs.«117141_j22101901705658_2_alg».proof.Proof.Gen.Kernel
import proofs.«117141_j22101901705658_2_alg».proof.Proof.Gen.Kernel.Frame
import proofs.«117141_j22101901705658_2_alg».proof.Proof.Gen.KernelIdeal
import proofs.«117141_j22101901705658_2_alg».proof.Proof.Gen.KernelIdeal.Frame
import proofs.«117141_j22101901705658_2_alg».proof.Proof.Gen.ReferenceIdeal
import proofs.«117141_j22101901705658_2_alg».proof.Proof.Gen.ReferenceIdeal.Run
import proofs.«117141_j22101901705658_2_alg».proof.Proof.Gen.ReferenceIdeal.Read
import proofs.«117141_j22101901705658_2_alg».proof.Proof.Gen.Pre_finite_inputs
import proofs.«117141_j22101901705658_2_alg».proof.Proof.KernelRun
import proofs.«117141_j22101901705658_2_alg».proof.Proof.ChainLayer3
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain program's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the plain program's last stage of the (agreeing) arguments. -/
theorem algebraic : Cert.algebraic_KernelIdeal_ReferenceIdeal := by
  intro m ρ m' ρ' _ hagree
  refine ⟨fun c => Cert.ReferenceIdeal.Read.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Chain.W18_v73 m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v138_eq, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
